-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x10000 : Shape := ⟨3, ![16, 512, 10000]⟩
abbrev S16x512 : Shape := ⟨2, ![16, 512]⟩
abbrev S16 : Shape := ⟨1, ![16]⟩
abbrev S_ : Shape := ⟨0, ![]⟩

class Facts : Prop where
  bcast_S_S16x512x10000 : S_.BroadcastsInDim S16x512x10000 (![] : Fin 0 → Fin S16x512x10000.rank)
  reducesTo_S16x512x10000_S_d0_1_2 : S16x512x10000.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg2 : IVec S16 32) (main_v15 : IVec S_ 1) : IVec S_ 1 :=
  let main_c_6 : IVec S_ 32 := constantI S_ 32 512#32
  let main_v16 : IVec S16 32 := broadcastInDim S16 ![] bcast_S_S16 main_c_6
  let main_v17 : IVec S16 1 := cmpi .sle main_arg2 main_v16
  let main_c_7 : IVec S_ 1 := constantI S_ 1 1#1
  let main_v18 : IVec S_ 1 := (fun x v => Host.reduce IntOp.andi x v reducesTo_S16_S_d0 h_S_) main_v17 main_c_7
  let main_v19 : IVec S_ 1 := andi main_v15 main_v18
  main_v19

def fn {F : FTy → Type} [FloatOps F] (main_arg0 : FVec F S16x512x10000 .f32) (main_arg1 : IVec S16x512 32) (main_arg2 : IVec S16 32) : IVec S_ 1 :=
  let main_v0 : FVec F S16x512x10000 .f32 := Host.absf main_arg0
  let main_cst : FVec F S_ .f32 := constant S_ .f32 0x7F800000#32
  let main_v1 : FVec F S16x512x10000 .f32 := broadcastInDim S16x512x10000 ![] bcast_S_S16x512x10000 main_cst
  let main_v2 : IVec S16x512x10000 1 := cmpf .olt main_v0 main_v1
  let main_c : IVec S_ 1 := constantI S_ 1 1#1
  let main_v3 : IVec S_ 1 := (fun x v => Host.reduce IntOp.andi x v reducesTo_S16x512x10000_S_d0_1_2 h_S_) main_v2 main_c
  let main_c_0 : IVec S_ 32 := constantI S_ 32 0#32
  let main_v4 : IVec S16x512 32 := broadcastInDim S16x512 ![] bcast_S_S16x512 main_c_0
  let main_v5 : IVec S16x512 1 := cmpi .sge main_arg1 main_v4
  let main_c_1 : IVec S_ 1 := constantI S_ 1 1#1
  let main_v6 : IVec S_ 1 := (fun x v => Host.reduce IntOp.andi x v reducesTo_S16x512_S_d0_1 h_S_) main_v5 main_c_1
  let main_v7 : IVec S_ 1 := andi main_v3 main_v6
  let main_c_2 : IVec S_ 32 := constantI S_ 32 10000#32
  let main_v8 : IVec S16x512 32 := broadcastInDim S16x512 ![] bcast_S_S16x512 main_c_2
  let main_v9 : IVec S16x512 1 := cmpi .slt main_arg1 main_v8
  let main_c_3 : IVec S_ 1 := constantI S_ 1 1#1
  let main_v10 : IVec S_ 1 := (fun x v => Host.reduce IntOp.andi x v reducesTo_S16x512_S_d0_1 h_S_) main_v9 main_c_3
  let main_v11 : IVec S_ 1 := andi main_v7 main_v10
  let main_c_4 : IVec S_ 32 := constantI S_ 32 0#32
  let main_v12 : IVec S16 32 := broadcastInDim S16 ![] bcast_S_S16 main_c_4
  let main_v13 : IVec S16 1 := cmpi .sge main_arg2 main_v12
  let main_c_5 : IVec S_ 1 := constantI S_ 1 1#1
  let main_v14 : IVec S_ 1 := (fun x v => Host.reduce IntOp.andi x v reducesTo_S16_S_d0 h_S_) main_v13 main_c_5
  let main_v15 : IVec S_ 1 := andi main_v11 main_v14
  fn_part1 (F := F) main_arg2 main_v15
-- ==== Kernel.lean ====
abbrev S16x512x10000 : Shape := ⟨3, ![16, 512, 10000]⟩
abbrev S16x512 : Shape := ⟨2, ![16, 512]⟩
abbrev S16 : Shape := ⟨1, ![16]⟩
abbrev S16x512x1 : Shape := ⟨3, ![16, 512, 1]⟩
abbrev S512 : Shape := ⟨1, ![512]⟩
abbrev S1x512 : Shape := ⟨2, ![1, 512]⟩
abbrev S16x1 : Shape := ⟨2, ![16, 1]⟩
abbrev S1x1 : Shape := ⟨2, ![1, 1]⟩
abbrev S1x256x10000 : Shape := ⟨3, ![1, 256, 10000]⟩
abbrev S1x256x1 : Shape := ⟨3, ![1, 256, 1]⟩
abbrev S256x10000 : Shape := ⟨2, ![256, 10000]⟩
abbrev S256 : Shape := ⟨1, ![256]⟩
abbrev S256x1 : Shape := ⟨2, ![256, 1]⟩
abbrev S1 : Shape := ⟨1, ![1]⟩
abbrev S1x1x1 : Shape := ⟨3, ![1, 1, 1]⟩
abbrev S_ : Shape := ⟨0, ![]⟩

abbrev nBuf : Space → Nat
  | .hbm => 18
  | .vmem => 7
  | .smem => 0
  | _ => 0

abbrev bufTy : (tb : Table) → Fin (tcTables nBuf tb) → BufTy
  | .hbm, ⟨0, _⟩ => ⟨S16x512x10000, .f32⟩
  | .hbm, ⟨1, _⟩ => ⟨S16x512, .i32⟩
  | .hbm, ⟨2, _⟩ => ⟨S16, .i32⟩
  | .hbm, ⟨3, _⟩ => ⟨S16x512x1, .i32⟩
  | .hbm, ⟨4, _⟩ => ⟨S512, .i32⟩
  | .hbm, ⟨5, _⟩ => ⟨S1x512, .i32⟩
  | .hbm, ⟨6, _⟩ => ⟨S16x1, .i32⟩
  | .hbm, ⟨7, _⟩ => ⟨S16x512, .i32⟩
  | .hbm, ⟨8, _⟩ => ⟨S16x512, .i32⟩
  | .hbm, ⟨9, _⟩ => ⟨S16x512, .i1⟩
  | .hbm, ⟨10, _⟩ => ⟨S16x512, .f32⟩
  | .hbm, ⟨11, _⟩ => ⟨S16x512x1, .f32⟩
  | .hbm, ⟨12, _⟩ => ⟨S1x1, .f32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x256x10000, .f32⟩
  | .local _ .vmem, ⟨1, _⟩ => ⟨S1x256x10000, .f32⟩
  | .local _ .vmem, ⟨2, _⟩ => ⟨S1x256x1, .i32⟩
  | .local _ .vmem, ⟨3, _⟩ => ⟨S1x256x1, .i32⟩
  | .local _ .vmem, ⟨4, _⟩ => ⟨S1x256x1, .f32⟩
  | .local _ .vmem, ⟨5, _⟩ => ⟨S1x256x1, .f32⟩
  | .local _ .vmem, ⟨6, _⟩ => ⟨S1x1, .f32⟩
  | _, _ => ⟨S16x512x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  shapeCasts_S16x512_S16x512x1 : S16x512.ShapeCasts S16x512x1
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  inb_S1x1_S1x1_0_0 : ∀ a, (![0, 0] : Fin 2 → Nat) a + S1x1.size a ≤ S1x1.size a
  h_S1x1 : 0 < S1x1.numel
  inb_S1x256x10000_S1x256x10000_0_0_0 : ∀ a, (![0, 0, 0] : Fin 3 → Nat) a + S1x256x10000.size a ≤ S1x256x10000.size a
  h_S1x256x10000 : 0 < S1x256x10000.numel
  shapeCasts_S1x256x10000_S256x10000 : S1x256x10000.ShapeCasts S256x10000
  reduces_S256x10000_S256 : S256x10000.Reduces [1] S256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  iota_S256x10000_d1_w32 : S256x10000.Iotas .tc 32 [1]
  broadcasts_S256x1_S256x10000 : S256x1.Broadcasts S256x10000
  shapeCasts_S1x1_S1x1 : S1x1.ShapeCasts S1x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  reducesTo_S16_S_d0 : S16.ReducesTo [0] S_
  h_S_ : 0 < S_.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x10000.size a ≤ S16x512x10000.size a
  hwx0_0 : ∀ i : grid0.Coords, EltTy.bits .f32 = 32 ∨ (Rect.block (s := S16x512x10000) S1x256x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S16x512x1.size a
  hwx0_1 : ∀ i : grid0.Coords, EltTy.bits .i32 = 32 ∨ (Rect.block (s := S16x512x1) S1x256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S16x512x1.size a
  hwx0_2 : ∀ i : grid0.Coords, EltTy.bits .f32 = 32 ∨ (Rect.block (s := S16x512x1) S1x256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S1x256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x10000 : Shape := ⟨3, ![16, 512, 10000]⟩
abbrev S16x512 : Shape := ⟨2, ![16, 512]⟩
abbrev S16 : Shape := ⟨1, ![16]⟩
abbrev S512 : Shape := ⟨1, ![512]⟩
abbrev S1x512 : Shape := ⟨2, ![1, 512]⟩
abbrev S16x1 : Shape := ⟨2, ![16, 1]⟩
abbrev S_ : Shape := ⟨0, ![]⟩
abbrev S16x512x1 : Shape := ⟨3, ![16, 512, 1]⟩
abbrev S16x512x1x1 : Shape := ⟨4, ![16, 512, 1, 1]⟩
abbrev S1 : Shape := ⟨1, ![1]⟩
abbrev S1x1x1x1 : Shape := ⟨4, ![1, 1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S16x512x10000, .f32⟩
  | .hbm, ⟨1, _⟩ => ⟨S16x512, .i32⟩
  | .hbm, ⟨2, _⟩ => ⟨S16, .i32⟩
  | .hbm, ⟨3, _⟩ => ⟨S512, .i32⟩
  | .hbm, ⟨4, _⟩ => ⟨S1x512, .i32⟩
  | .hbm, ⟨5, _⟩ => ⟨S16x1, .i32⟩
  | .hbm, ⟨6, _⟩ => ⟨S16x512, .i32⟩
  | .hbm, ⟨7, _⟩ => ⟨S16x512, .i32⟩
  | .hbm, ⟨8, _⟩ => ⟨S16x512, .i1⟩
  | .hbm, ⟨9, _⟩ => ⟨S16x512, .f32⟩
  | .hbm, ⟨10, _⟩ => ⟨S_, .f32⟩
  | .hbm, ⟨11, _⟩ => ⟨S16x512, .f32⟩
  | .hbm, ⟨12, _⟩ => ⟨S_, .f32⟩
  | .hbm, ⟨13, _⟩ => ⟨S16x512, .f32⟩
  | .hbm, ⟨14, _⟩ => ⟨S16x512, .f32⟩
  | .hbm, ⟨15, _⟩ => ⟨S16x512x1, .f32⟩
  | .hbm, ⟨16, _⟩ => ⟨S16x512x10000, .f32⟩
  | .hbm, ⟨17, _⟩ => ⟨S16x512x10000, .f32⟩
  | .hbm, ⟨18, _⟩ => ⟨S16x512x10000, .f32⟩
  | .hbm, ⟨19, _⟩ => ⟨S_, .f32⟩
  | .hbm, ⟨20, _⟩ => ⟨S16x512, .f32⟩
  | .hbm, ⟨21, _⟩ => ⟨S16x512x1, .f32⟩
  | .hbm, ⟨22, _⟩ => ⟨S16x512x1, .f32⟩
  | .hbm, ⟨23, _⟩ => ⟨S16x512x10000, .f32⟩
  | .hbm, ⟨24, _⟩ => ⟨S16x512x10000, .f32⟩
  | .hbm, ⟨25, _⟩ => ⟨S16x512x1, .i32⟩
  | .hbm, ⟨26, _⟩ => ⟨S_, .i32⟩
  | .hbm, ⟨27, _⟩ => ⟨S16x512x1, .i32⟩
  | .hbm, ⟨28, _⟩ => ⟨S16x512x1, .i1⟩
  | .hbm, ⟨29, _⟩ => ⟨S_, .i32⟩
  | .hbm, ⟨30, _⟩ => ⟨S16x512x1, .i32⟩
  | .hbm, ⟨31, _⟩ => ⟨S16x512x1, .i32⟩
  | .hbm, ⟨32, _⟩ => ⟨S16x512x1, .i32⟩
  | .hbm, ⟨33, _⟩ => ⟨S16x512x1x1, .i32⟩
  | .hbm, ⟨34, _⟩ => ⟨S1, .i32⟩
  | .hbm, ⟨35, _⟩ => ⟨S_, .i32⟩
  | .hbm, ⟨36, _⟩ => ⟨S16x512x1x1, .i32⟩
  | .hbm, ⟨37, _⟩ => ⟨S16x512x1x1, .i1⟩
  | .hbm, ⟨38, _⟩ => ⟨S1x1x1x1, .i32⟩
  | .hbm, ⟨39, _⟩ => ⟨S16x512x1x1, .i32⟩
  | .hbm, ⟨40, _⟩ => ⟨S16x512x1x1, .i1⟩
  | .hbm, ⟨41, _⟩ => ⟨S16x512x1x1, .i1⟩
  | .hbm, ⟨42, _⟩ => ⟨S_, .i1⟩
  | .hbm, ⟨43, _⟩ => ⟨S16x512x1, .i1⟩
  | .hbm, ⟨44, _⟩ => ⟨S16x512x1, .f32⟩
  | .hbm, ⟨45, _⟩ => ⟨S_, .f32⟩
  | .hbm, ⟨46, _⟩ => ⟨S16x512x1, .f32⟩
  | .hbm, ⟨47, _⟩ => ⟨S16x512x1, .f32⟩
  | .hbm, ⟨48, _⟩ => ⟨S16x512, .f32⟩
  | .hbm, ⟨49, _⟩ => ⟨S16x512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16x512x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v7 : Ref sig .tc := ⟨.hbm, 24, rfl⟩
abbrev main_v8 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst : Ref sig .tc := ⟨.hbm, 50, rfl⟩
abbrev main_v12 : Ref sig .tc := ⟨.hbm, 51, rfl⟩
abbrev main_v13 : Ref sig .tc := ⟨.hbm, 52, rfl⟩
abbrev main_cst_0 : Ref sig .tc := ⟨.hbm, 53, rfl⟩
abbrev main_v14 : Ref sig .tc := ⟨.hbm, 54, rfl⟩
abbrev main_v15 : Ref sig .tc := ⟨.hbm, 55, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  reducesTo_S16x512x10000_S16x512_d2 : S16x512x10000.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x10000_0_1_2 : S16x512x1.BroadcastsInDim S16x512x10000 (![0, 1, 2] : Fin 3 → Fin S16x512x10000.rank)
  bcast_S_S16x512x1 : S_.BroadcastsInDim S16x512x1 (![] : Fin 0 → Fin S16x512x1.rank)
  shapeCasts_S16x512x1_S16x512x1x1 : S16x512x1.ShapeCasts S16x512x1x1
  bcast_S_S16x512x1x1 : S_.BroadcastsInDim S16x512x1x1 (![] : Fin 0 → Fin S16x512x1x1.rank)
  bcast_S1_S1x1x1x1_3 : S1.BroadcastsInDim S1x1x1x1 (![3] : Fin 1 → Fin S1x1x1x1.rank)
  bcast_S1x1x1x1_S16x512x1x1_0_1_2_3 : S1x1x1x1.BroadcastsInDim S16x512x1x1 (![0, 1, 2, 3] : Fin 4 → Fin S16x512x1x1.rank)
  reducesTo_S16x512x1x1_S16x512x1_d3 : S16x512x1x1.ReducesTo [3] S16x512x1
  shapeCasts_S16x512x1_S16x512 : S16x512x1.ShapeCasts S16x512
  reducesTo_S16x512_S_d0_1 : S16x512.ReducesTo [0, 1] S_
  gather_S16x512x10000_S16x512x1x1_S16x512x1_n_2_01_01_2_3_111_wf : GatherDims.WF S16x512x10000 S16x512x1x1 S16x512x1 [] [2] [0, 1] [2] [0, 1] 3 ![1, 1, 1]

variable [Facts₀]

def gather_S16x512x10000_S16x512x1x1_S16x512x1_n_2_01_01_2_3_111 : GatherDims S16x512x10000 S16x512x1x1 S16x512x1 where
  offsetDims := []
  collapsedSliceDims := [2]
  operandBatchingDims := [0, 1]
  startIndicesBatchingDims := [0, 1]
  startIndexMap := [2]
  indexVectorDim := 3
  sliceSizes := ![1, 1, 1]
  wf := gather_S16x512x10000_S16x512x1x1_S16x512x1_n_2_01_01_2_3_111_wf

class Facts : Prop extends Facts₀ where

variable [Facts]
-- ==== Proof.Spec.lean ====
/-
  The packed cross-entropy loss as ONE function of the three argument arrays, over the extended reals:
  logits x[b, t, v] (16 x 512 x 10000), targets tg[b, t], lengths ln[b].  Row (b, t) contributes
  log (sum_v exp x[b,t,v]) minus the target logit, weighted by the mask [t < ln[b]]; the loss is the sum of the
  weighted rows divided by the sum of the lengths.  The target logit is written as the sum over v of the entries
  whose column number equals the target word (at most one does), the mask as the 0/1 value of the signed
  comparison, the count as the 32-bit sum of the lengths read as a signed integer.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![16, 512, 10000]⟩
abbrev ST : Shape := ⟨2, ![16, 512]⟩
abbrev SL : Shape := ⟨1, ![16]⟩
abbrev S0 : Shape := ⟨0, ![]⟩

/-- log of the sum over the 10000 columns of exp x[b,t,v]. -/
def lse (x : SX.Idx → EReal) (b : Fin 16) (t : Fin 512) : EReal :=
  Ideal.log (∑ v : Fin 10000, Ideal.exp (x (ix3 b t v)))

/-- The target logit of row (b, t): the sum over the columns of the entry where the column number is the target
    word, zero elsewhere. -/
def picked (x : SX.Idx → EReal) (tg : ST.Idx → BitVec 32) (b : Fin 16) (t : Fin 512) : EReal :=
  ∑ v : Fin 10000, Scalar.select (IntOp.cmpi .eq (BitVec.ofNat 32 v.val) (tg (ix2 b t))) (x (ix3 b t v)) (0 : EReal)

/-- The mask of row (b, t): one where t < ln[b] as signed words, zero elsewhere. -/
def mask (ln : SL.Idx → BitVec 32) (b : Fin 16) (t : Fin 512) : EReal :=
  (((IntOp.cmpi .slt (BitVec.ofNat 32 t.val) (ln (ix1 b))).toNat : ℝ) : EReal)

/-- The masked sum of the rows' losses. -/
def num (x : SX.Idx → EReal) (tg : ST.Idx → BitVec 32) (ln : SL.Idx → BitVec 32) : EReal :=
  ∑ b : Fin 16, ∑ t : Fin 512, mask ln b t * (lse x b t - picked x tg b t)

/-- The 32-bit sum of the lengths. -/
def lenSum (ln : SL.Idx → BitVec 32) : BitVec 32 :=
  Host.reduce (axes := [0]) (t := S0) (u := S0) IntOp.addi ln (fun _ => 0#32) (by decide) (by decide) ix0

/-- The sum of the lengths, read signed, as a real. -/
def count (ln : SL.Idx → BitVec 32) : EReal := (((lenSum ln).toInt : ℝ) : EReal)

/-- The loss. -/
def loss (x : SX.Idx → EReal) (tg : ST.Idx → BitVec 32) (ln : SL.Idx → BitVec 32) : EReal :=
  Ideal.div (num x tg ln) (count ln)

end Cert.Spec

end
-- ==== Proof.Cases.lean ====
/-
  What the kernel body leaves in the 1 x 1 accumulator block at a grid point, as a value: at the first point the
  payload over the zero block the body has just stored, at every other point the payload over the block the point
  before left.
-/
import proofs.«142376_g67714454389493_cont_9to1_m_9_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point other than the first: the body's one store covers the 1 x 1 accumulator block with the point's payload of
    the three input blocks and of the accumulator as the point found it; every load reads a whole buffer. -/
theorem out_B (c : Dev nD) (i : grid0.Coords) (arg2 : Memref sig .tc .vmem S1x256x10000 .f32) (harg2 : arg2.IsWhole) (arg3 : Memref sig .tc .vmem S1x256x1 .i32) (harg3 : arg3.IsWhole) (arg4 : Memref sig .tc .vmem S1x256x1 .f32) (harg4 : arg4.IsWhole) (arg5 : Memref sig .tc .vmem S1x1 .f32) (harg5 : arg5.IsWhole) (hc0 : ¬cond0_0 i)
    (x0 : Vec F S1x256x10000 .f32) (x1 : Vec F S1x256x1 .i32) (x2 : Vec F S1x256x1 .f32) (xo3 : Vec F S1x1 .f32) :
    out0_B_3 c i arg2 harg2 arg3 harg3 arg4 harg4 arg5 harg5 hc0 x0 x1 x2 xo3 = k0_pay2 x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  rw [View.canon_unit_zero hz2]
  simp only [View.readAt_eq_ld, harg2.read_unread, harg3.read_unread, harg4.read_unread, harg5.read_unread,
    View.ld_unit_zero (S := S1x256x10000) hz3, View.ld_unit_zero (S := S1x256x1) hz3, View.ld_unit_zero (S := S1x1) hz2]

/-- The first point: the body first stores the zero block over the accumulator, reads it back, and then stores the
    payload of the input blocks and of that zero block. -/
theorem out_A (c : Dev nD) (i : grid0.Coords) (arg2 : Memref sig .tc .vmem S1x256x10000 .f32) (harg2 : arg2.IsWhole) (arg3 : Memref sig .tc .vmem S1x256x1 .i32) (harg3 : arg3.IsWhole) (arg4 : Memref sig .tc .vmem S1x256x1 .f32) (harg4 : arg4.IsWhole) (arg5 : Memref sig .tc .vmem S1x1 .f32) (harg5 : arg5.IsWhole) (hc0 : cond0_0 i)
    (x0 : Vec F S1x256x10000 .f32) (x1 : Vec F S1x256x1 .i32) (x2 : Vec F S1x256x1 .f32) :
    out0_A_3 c i arg2 harg2 arg3 harg3 arg4 harg4 arg5 harg5 hc0 x0 x1 x2 = k0_pay2 x0 x1 x2 (k0_pay1 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread,
    View.ld_unit_zero (S := S1x256x10000) hz3, View.ld_unit_zero (S := S1x256x1) hz3]

end Cert.KernelIdeal.Cases

end
-- ==== Proof.LibColumnLayout.lean ====
/-
  Column forms of the layout operations, read at an index: a vector of `a` entries cast to one column `[a, 1]`,
  and one column `[a, 1]` broadcast over `b` columns — the shapes a row-wise reduction kept as a column
  (a row maximum, a row sum) and a per-row bias pass through. Generic in the sizes, for any element type.
-/
import Idealize.ShloMosaic.Lib.ValueIdx
import Idealize.ShloMosaic.Lib.Pipeline.Value

namespace Cert.GatedAttn.ColumnLayout

open Idealize.ShloMosaic Idealize.ShloMosaic.ValueIdx

variable {α : Type}

/-- A vector `[a]` cast to a column `[a, 1]` reads, at `(i, u)`, the vector's entry `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`: the unit axis reads `0`,
    the row axis its own coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GatedAttn.ColumnLayout
-- ==== Proof.Payload.lean ====
/-
  The kernel body's arithmetic at one grid point, read at the ideal instance: the 1 x 1 accumulator block after the
  point is the block before it plus the sum over the point's 256 rows of  mask * (log-sum-exp of the row's 10000 logits
  minus the target logit),  the target logit written as the sum of the logits whose column number equals the target word.
-/
import proofs.«142376_g67714454389493_cont_9to1_m_9_4_alg».proof.Proof.Gen.KernelIdeal.Skeleton
import proofs.«142376_g67714454389493_cont_9to1_m_9_4_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen
open scoped BigOperators

/-- A lane sum over the 10000 columns of a 256 x 10000 vector, at row r. -/
theorem rowsum_apply (v : FVec Ideal S256x10000 .f32) (r : Fin 256) :
    multiReduction (F := Ideal) .add [1] S256 v 0x00000000#32 reduces_S256x10000_S256 (.inl rfl) rfl (ix1 r)
      = ∑ c : Fin 10000, v (ix2 r c) := by
  refine (Ideal.multiReduction_add_single v 0x00000000#32 reduces_S256x10000_S256 (.inl rfl) rfl (ix1 r)).trans ?_
  refine Finset.sum_congr rfl fun k _ => congrArg v ?_
  funext a
  match a with
  | ⟨0, _⟩ => rfl
  | ⟨1, _⟩ => rfl

/-- The sum of a 1 x 256 x 1 vector over its two trailing axes is the sum of its 256 entries. -/
theorem total_apply (v : FVec Ideal S1x256x1 .f32) (j : S1.Idx) :
    multiReduction (F := Ideal) .add [1, 2] S1 v 0x00000000#32 reduces_S1x256x1_S1 (.inl rfl) rfl j
      = ∑ r : Fin 256, v (ix3 (0 : Fin 1) r (0 : Fin 1)) := by
  refine (Ideal.multiReduction_add_total v 0x00000000#32 reduces_S1x256x1_S1 (fun b => by match b with | ⟨0, _⟩ => rfl) (.inl rfl) rfl j).trans ?_
  refine (Fintype.sum_bijective (fun r : Fin 256 => (ix3 (0 : Fin 1) r (0 : Fin 1) : S1x256x1.Idx)) ?_ _ _ (fun _ => rfl)).symm
  constructor
  · intro r r' h
    exact congrFun h (1 : Fin 3)
  · intro i
    refine ⟨i 1, ?_⟩
    funext a
    match a with
    | ⟨0, _⟩ => exact Fin.ext (by have h0 : (i 0).val < 1 := (i 0).isLt; show 0 = (i 0).val; omega)
    | ⟨1, _⟩ => rfl
    | ⟨2, _⟩ => exact Fin.ext (by have h2 : (i 2).val < 1 := (i 2).isLt; show 0 = (i 2).val; omega)

/-- The accumulated block after one grid point: the block before plus the sum, over the point's 256 rows, of the row's
    mask times (the log of the sum of the exponentials of its 10000 logits, minus the sum of the logits whose column
    number is the row's target word). -/
theorem pay2_eq (x0 : Vec Ideal S1x256x10000 .f32) (x1 : Vec Ideal S1x256x1 .i32) (x2 : Vec Ideal S1x256x1 .f32) (xo : Vec Ideal S1x1 .f32) (j : S1x1.Idx) :
    k0_pay2 (F := Ideal) x0 x1 x2 xo j = xo j + ∑ r : Fin 256, x2 (ix3 (0 : Fin 1) r (0 : Fin 1)) * (Ideal.log (∑ c : Fin 10000, Ideal.exp (x0 (ix3 (0 : Fin 1) r c))) - ∑ c : Fin 10000, Scalar.select (IntOp.cmpi .eq (BitVec.ofNat 32 c.val) (x1 (ix3 (0 : Fin 1) r (0 : Fin 1)))) (x0 (ix3 (0 : Fin 1) r c)) (0 : EReal)) := by
  unfold k0_pay2
  dsimp only
  show shapeCast S1x1 xo shapeCasts_S1x1_S1x1 j + extractAt ![0, 0, 0] (shapeCast S1x1x1 _ shapeCasts_S1_S1x1x1) inpos_S1x1x1_p0_0_0 = _
  rw [shapeCast_self]
  refine congrArg (xo j + ·) ?_
  unfold extractAt
  refine (shapeCast_apply _ shapeCasts_S1_S1x1x1 _ (ix1 (0 : Fin 1)) ?_).trans ?_
  · rw [Shape.rowMajor_val_one, Shape.rowMajor_val_three]; rfl
  refine (total_apply _ _).trans ?_
  refine Finset.sum_congr rfl fun r _ => ?_
  refine (shapeCast_ab_1ab_apply _ shapeCasts_S256x1_S1x256x1 0 r 0).trans ?_
  show shapeCast S256x1 x2 _ (ix2 r 0) * (Ideal.log (shapeCast S256x1 _ shapeCasts_S256_S256x1 (ix2 r 0)) - shapeCast S256x1 _ shapeCasts_S256_S256x1 (ix2 r 0)) = _
  rw [shapeCast_1ab_ab_apply x2 shapeCasts_S1x256x1_S256x1 r 0,
    Cert.GatedAttn.ColumnLayout.shapeCast_a_a1_apply _ shapeCasts_S256_S256x1 r 0,
    Cert.GatedAttn.ColumnLayout.shapeCast_a_a1_apply _ shapeCasts_S256_S256x1 r 0,
    rowsum_apply, rowsum_apply]
  refine congrArg (x2 (ix3 (0 : Fin 1) r (0 : Fin 1)) * ·) ?_
  refine congrArg₂ (fun a b => Ideal.log a - b) ?_ ?_
  · refine Finset.sum_congr rfl fun c _ => ?_
    show Ideal.exp (shapeCast S256x10000 x0 shapeCasts_S1x256x10000_S256x10000 (ix2 r c)) = _
    rw [shapeCast_1ab_ab_apply x0 shapeCasts_S1x256x10000_S256x10000 r c]
  · refine Finset.sum_congr rfl fun c _ => ?_
    show Scalar.select (IntOp.cmpi .eq (iota .tc S256x10000 32 [1] iota_S256x10000_d1_w32 (ix2 r c))
        (broadcastTo S256x10000 (shapeCast S256x1 x1 shapeCasts_S1x256x1_S256x1) broadcasts_S256x1_S256x10000 (ix2 r c)))
      (shapeCast S256x10000 x0 shapeCasts_S1x256x10000_S256x10000 (ix2 r c)) (Ideal.ofBits .f32 0x00000000#32) = _
    rw [shapeCast_1ab_ab_apply x0 shapeCasts_S1x256x10000_S256x10000 r c,
      Cert.GatedAttn.ColumnLayout.broadcastTo_a1_ab_apply _ broadcasts_S256x1_S256x10000 r c,
      shapeCast_1ab_ab_apply x1 shapeCasts_S1x256x1_S256x1 r 0, Ideal.ofBits_zero_f32]
    refine congrArg (fun w => Scalar.select (IntOp.cmpi .eq w (x1 (ix3 (0 : Fin 1) r (0 : Fin 1)))) (x0 (ix3 (0 : Fin 1) r c)) (0 : EReal)) ?_
    show BitVec.ofNat 32 (0 * 10000 + c.val) = _
    rw [Nat.zero_mul, Nat.zero_add]

end Cert.KernelIdeal.Payload

end
-- ==== Proof.Accum.lean ====
/-
  The accumulation over the grid, at the ideal instance. Grid point t adds, to the 1 x 1 accumulator block, the sum over
  its 256 rows of  mask * (log-sum-exp - target logit)  of its three input blocks; the block is zeroed at the first
  point and carried from point to point, so after point n it holds the running sum of the first n + 1 points
  (induction on the point), and the one write-back, after the last point, leaves the total in the region's 1 x 1
  result array.
-/
import proofs.«142376_g67714454389493_cont_9to1_m_9_4_alg».proof.Proof.Gen.KernelIdeal.Frame
import proofs.«142376_g67714454389493_cont_9to1_m_9_4_alg».proof.Proof.Cases
import proofs.«142376_g67714454389493_cont_9to1_m_9_4_alg».proof.Proof.Payload
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx
open scoped BigOperators

variable (m : (ℓ : Loc nD τ sig) → Buf (Elt Ideal) ℓ)

/-- The three input blocks of grid point t, at their literal shapes: the logits' block, the targets' block, the mask's
    block. -/
def blkX (c : Dev nD) (t : Fin cfg0.N) : Vec Ideal S1x256x10000 .f32 := iblk m c 0 t
def blkT (c : Dev nD) (t : Fin cfg0.N) : Vec Ideal S1x256x1 .i32 := iblk m c 1 t
def blkM (c : Dev nD) (t : Fin cfg0.N) : Vec Ideal S1x256x1 .f32 := iblk m c 2 t

/-- What grid point t adds to the accumulator: the sum over its 256 rows of mask * (log-sum-exp - target logit), read
    off the three input blocks of the point. -/
def added (c : Dev nD) (t : Fin cfg0.N) : EReal :=
  ∑ r : Fin 256, blkM m c t (ix3 (0 : Fin 1) r (0 : Fin 1))
    * (Ideal.log (∑ cc : Fin 10000, Ideal.exp (blkX m c t (ix3 (0 : Fin 1) r cc)))
      - ∑ cc : Fin 10000, Scalar.select (IntOp.cmpi .eq (BitVec.ofNat 32 cc.val) (blkT m c t (ix3 (0 : Fin 1) r (0 : Fin 1))))
          (blkX m c t (ix3 (0 : Fin 1) r cc)) (0 : EReal))

/-- The running sum after point n. -/
def partialSum (c : Dev nD) : (n : ℕ) → n < cfg0.N → EReal
  | 0, h => added m c ⟨0, h⟩
  | n + 1, h => partialSum c n (Nat.lt_of_succ_lt h) + added m c ⟨n + 1, h⟩

/-- The accumulator block after point n holds the running sum: by induction on the point. -/
theorem outsAt_eq (c : Dev nD) : ∀ (n : ℕ) (h : n < cfg0.N) (j : S1x1.Idx), outsAt0 m c n h j = partialSum m c n h
  | 0, h, j => by
    rw [outsAt0_A m c ⟨0, h⟩ rfl, Cases.out_A]
    refine (Payload.pay2_eq _ _ _ _ j).trans ?_
    show Ideal.ofBits .f32 0x00000000#32 + added m c ⟨0, h⟩ = added m c ⟨0, h⟩
    rw [Ideal.ofBits_zero_f32, zero_add]
  | n + 1, h, j => by
    have hN : cfg0.N = 32 := N_0
    have hB : ¬(⟨n + 1, h⟩ : Fin cfg0.N).val % 32 = 0 := by dsimp only; omega
    rw [outsAt0_B m c ⟨n + 1, h⟩ hB, Cases.out_B]
    refine (Payload.pay2_eq _ _ _ _ j).trans ?_
    show outsAt0 m c n _ j + added m c ⟨n + 1, h⟩ = partialSum m c n _ + added m c ⟨n + 1, h⟩
    rw [outsAt_eq c n]

/-- The last grid point. -/
def tLast : Fin cfg0.N := ⟨31, by rw [show cfg0.N = 32 from N_0]; decide⟩

/-- The sum over all 32 grid points. -/
def total (c : Dev nD) : EReal := partialSum m c 31 (by rw [show cfg0.N = 32 from N_0]; decide)

/-- The result array of the region: its one entry is the total. -/
abbrev result (c : Dev nD) : Buf (Elt Ideal) ((c : Thread nD τ).loc main_v9) := fun _ => total m c

/-- The one write-back, at the last point, writes the total. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h31 : t.val = 31 := by have := (flush0_3 t).mp hf; have := t.isLt; omega
  obtain rfl : t = ⟨31, by rw [hN]; decide⟩ := Fin.ext h31
  show (cfg0.win 3).cut (grid0.coords _) ((dats m 0 c).after 3 _) = _
  rw [after0_3]
  funext y
  rw [View.read_apply]
  show outsAt0 m c 31 _ _ = total m c
  exact outsAt_eq m c 31 _ _

/-- So the region's result array ends holding the total: the last point's block is the whole 1 x 1 array. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v9).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => exact ⟨Nat.zero_le _, h0⟩
      | ⟨1, _⟩ => exact ⟨Nat.zero_le _, h1⟩⟩

end Cert.KernelIdeal.Accum

end
-- ==== Proof.Blocks.lean ====
/-
  The three input blocks of a grid point, read off the argument arrays. Grid point t = 2 b + i stages rows
  256 i .. 256 i + 255 of batch row b: of the logits directly, of the targets through the host's reshape to
  16 x 512 x 1, and of the mask array the host computes before the region ([t < ln b] as a float, reshaped likewise).
-/
import proofs.«142376_g67714454389493_cont_9to1_m_9_4_alg».proof.Proof.Gen.KernelIdeal.Frame
import proofs.«142376_g67714454389493_cont_9to1_m_9_4_alg».proof.Proof.Accum
import proofs.«142376_g67714454389493_cont_9to1_m_9_4_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Idealize.ShloMosaic.StableHlo
open scoped BigOperators

variable (m : (ℓ : Loc nD τ sig) → Buf (Elt Ideal) ℓ)

/-- Grid point t = 2 b + i stages, of each input array, the block (b, i, 0): batch row b, half i of its 512 timesteps. -/
theorem idx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, win0_0.index t (0 : Fin 3) = t.val / 2 ∧ win0_0.index t (1 : Fin 3) = t.val % 2 ∧ win0_0.index t (2 : Fin 3) = 0)
theorem idx1 : ∀ t : Fin cfg0.N, win0_1.index t (0 : Fin 3) = t.val / 2 ∧ win0_1.index t (1 : Fin 3) = t.val % 2 ∧ win0_1.index t (2 : Fin 3) = 0 :=
  (by decide +kernel : ∀ t : Fin grid0.N, win0_1.index t (0 : Fin 3) = t.val / 2 ∧ win0_1.index t (1 : Fin 3) = t.val % 2 ∧ win0_1.index t (2 : Fin 3) = 0)
theorem idx2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, win0_2.index t (0 : Fin 3) = t.val / 2 ∧ win0_2.index t (1 : Fin 3) = t.val % 2 ∧ win0_2.index t (2 : Fin 3) = 0)

/-- The mask array the host computes before the region: [t < ln b] as a float, over 16 x 512. -/
def maskArr (ln : IVec S16 32) : FVec Ideal S16x512 .f32 :=
  uitofp .f32 (cmpi .slt
    (broadcastInDim S16x512 ![0, 1] bcast_S1x512_S16x512_0_1 (broadcastInDim S1x512 ![1] bcast_S512_S1x512_1 (iotaInDim S512 32 0)))
    (broadcastInDim S16x512 ![0, 1] bcast_S16x1_S16x512_0_1 (broadcastInDim S16x1 ![0] bcast_S16_S16x1_0 ln)))

theorem maskArr_apply (ln : IVec S16 32) (b : Fin 16) (t : Fin 512) : maskArr ln (ix2 b t) = Cert.Spec.mask ln b t := by
  have e1 := broadcastInDim_apply ![0, 1] bcast_S1x512_S16x512_0_1 (broadcastInDim S1x512 ![1] bcast_S512_S1x512_1 (iotaInDim S512 32 0)) (ix2 b t) (ix2 (0 : Fin 1) t)
    (fun a => match a with
      | ⟨0, _⟩ => by show 0 = if (1 : Nat) = 1 then 0 else b.val; rw [if_pos rfl]
      | ⟨1, _⟩ => by show t.val = if (512 : Nat) = 1 then 0 else t.val; rw [if_neg (by decide)])
  have e2 := broadcastInDim_apply ![1] bcast_S512_S1x512_1 (iotaInDim S512 32 0) (ix2 (0 : Fin 1) t) (ix1 t)
    (fun a => match a with
      | ⟨0, _⟩ => by show t.val = if (512 : Nat) = 1 then 0 else t.val; rw [if_neg (by decide)])
  have e3 := broadcastInDim_apply ![0, 1] bcast_S16x1_S16x512_0_1 (broadcastInDim S16x1 ![0] bcast_S16_S16x1_0 ln) (ix2 b t) (ix2 b (0 : Fin 1))
    (fun a => match a with
      | ⟨0, _⟩ => by show b.val = if (16 : Nat) = 1 then 0 else b.val; rw [if_neg (by decide)]
      | ⟨1, _⟩ => by show 0 = if (1 : Nat) = 1 then 0 else t.val; rw [if_pos rfl])
  have e4 := broadcastInDim_apply ![0] bcast_S16_S16x1_0 ln (ix2 b (0 : Fin 1)) (ix1 b)
    (fun a => match a with
      | ⟨0, _⟩ => by show b.val = if (16 : Nat) = 1 then 0 else b.val; rw [if_neg (by decide)])
  exact congrArg₂ (fun a b => FloatOps.uitofp (F := Ideal) .f32 (IntOp.cmpi .slt a b)) (e1.trans e2) (e3.trans e4)

/-- The arrays the region finds: the targets reshaped to 16 x 512 x 1, the mask array reshaped likewise. -/
theorem V_targets (c : Dev nD) : (V m c main_v0 : S16x512x1.Idx → BitVec 32)
    = shapeCast S16x512x1 (m ((c : Thread nD τ).loc main_arg1)) shapeCasts_S16x512_S16x512x1 := by
  show StableHlo.after hostOps0 (fun b => m (c, b)) (Proc.devRef .tc main_v0) = _
  after_results
  rfl

theorem V_mask (c : Dev nD) : (V m c main_v8 : S16x512x1.Idx → EReal)
    = shapeCast S16x512x1 (maskArr (m ((c : Thread nD τ).loc main_arg2))) shapeCasts_S16x512_S16x512x1 := by
  show StableHlo.after hostOps0 (fun b => m (c, b)) (Proc.devRef .tc main_v8) = _
  after_results
  rfl

/-- A 16 x 512 array reshaped to 16 x 512 x 1, at (b, t, 0). -/
theorem cast_col_apply {α : Type} (x : S16x512.Idx → α) (b : Fin 16) (t : Fin 512) (u : Fin 1) :
    shapeCast S16x512x1 x shapeCasts_S16x512_S16x512x1 (ix3 b t u) = x (ix2 b t) :=
  shapeCast_apply x shapeCasts_S16x512_S16x512x1 _ _ (by
    have hu : u.val = 0 := by omega
    rw [Shape.rowMajor_val_three, Shape.rowMajor_val_two]
    show b.val * 512 + t.val = (b.val * 512 + t.val) * 1 + u.val
    rw [hu, Nat.mul_one, Nat.add_zero])

theorem blkX_apply (c : Dev nD) (t : Fin cfg0.N) (r : Fin 256) (cc : Fin 10000) (b : Fin 16) (i : Fin 2) (ht : t.val = b.val * 2 + i.val) :
    Accum.blkX m c t (ix3 (0 : Fin 1) r cc) = m ((c : Thread nD τ).loc main_arg0) (ix3 b (⟨i.val * 256 + r.val, by omega⟩ : Fin 512) cc) := by
  unfold Accum.blkX iblk
  rw [View.read_apply]
  show V m c main_arg0 _ = _
  rw [V_main_arg0]
  refine congrArg (m ((c : Thread nD τ).loc main_arg0)) (funext fun a => Fin.ext ?_)
  obtain ⟨h0, h1, h2⟩ := idx0 t
  have hi := i.isLt
  match a with
  | ⟨0, _⟩ => show win0_0.index t (0 : Fin 3) * 1 + 1 * (0 : Nat) = b.val; rw [h0]; omega
  | ⟨1, _⟩ => show win0_0.index t (1 : Fin 3) * 256 + 1 * r.val = i.val * 256 + r.val; rw [h1]; omega
  | ⟨2, _⟩ => show win0_0.index t (2 : Fin 3) * 10000 + 1 * cc.val = cc.val; rw [h2]; omega

theorem blkT_apply (c : Dev nD) (t : Fin cfg0.N) (r : Fin 256) (b : Fin 16) (i : Fin 2) (ht : t.val = b.val * 2 + i.val) :
    Accum.blkT m c t (ix3 (0 : Fin 1) r (0 : Fin 1)) = m ((c : Thread nD τ).loc main_arg1) (ix2 b (⟨i.val * 256 + r.val, by omega⟩ : Fin 512)) := by
  unfold Accum.blkT iblk
  rw [View.read_apply]
  show (V m c main_v0 : S16x512x1.Idx → BitVec 32) _ = _
  rw [V_targets]
  refine Eq.trans (congrArg _ (funext fun a => Fin.ext ?_)) (cast_col_apply (m ((c : Thread nD τ).loc main_arg1)) b (⟨i.val * 256 + r.val, by omega⟩ : Fin 512) (0 : Fin 1))
  obtain ⟨h0, h1, h2⟩ := idx1 t
  have hi := i.isLt
  match a with
  | ⟨0, _⟩ => show win0_1.index t (0 : Fin 3) * 1 + 1 * (0 : Nat) = b.val; rw [h0]; omega
  | ⟨1, _⟩ => show win0_1.index t (1 : Fin 3) * 256 + 1 * r.val = i.val * 256 + r.val; rw [h1]; omega
  | ⟨2, _⟩ => show win0_1.index t (2 : Fin 3) * 1 + 1 * (0 : Nat) = 0; rw [h2]

theorem blkM_apply (c : Dev nD) (t : Fin cfg0.N) (r : Fin 256) (b : Fin 16) (i : Fin 2) (ht : t.val = b.val * 2 + i.val) :
    Accum.blkM m c t (ix3 (0 : Fin 1) r (0 : Fin 1)) = Cert.Spec.mask (m ((c : Thread nD τ).loc main_arg2)) b (⟨i.val * 256 + r.val, by omega⟩ : Fin 512) := by
  unfold Accum.blkM iblk
  rw [View.read_apply]
  show (V m c main_v8 : S16x512x1.Idx → EReal) _ = _
  rw [V_mask]
  refine Eq.trans (congrArg _ (funext fun a => Fin.ext ?_)) ((cast_col_apply (maskArr (m ((c : Thread nD τ).loc main_arg2))) b (⟨i.val * 256 + r.val, by omega⟩ : Fin 512) (0 : Fin 1)).trans (maskArr_apply _ _ _))
  obtain ⟨h0, h1, h2⟩ := idx2 t
  have hi := i.isLt
  match a with
  | ⟨0, _⟩ => show win0_2.index t (0 : Fin 3) * 1 + 1 * (0 : Nat) = b.val; rw [h0]; omega
  | ⟨1, _⟩ => show win0_2.index t (1 : Fin 3) * 256 + 1 * r.val = i.val * 256 + r.val; rw [h1]; omega
  | ⟨2, _⟩ => show win0_2.index t (2 : Fin 3) * 1 + 1 * (0 : Nat) = 0; rw [h2]

end Cert.KernelIdeal.Blocks

end
-- ==== Proof.LibLossAlgebra.lean ====
/-
  General lemmas over the extended reals and the reals that the comparison of the two loss expressions uses:
  the coercion of a finite sum, the contraction of a vector with a row of the identity matrix, and a sum over
  m·n indices cut into m blocks of n consecutive indices.
-/
import Mathlib.Data.EReal.Operations
import Mathlib.Data.EReal.Inv
import Mathlib.Algebra.BigOperators.Fin
import Mathlib.Algebra.BigOperators.Group.Finset.Basic
import Mathlib.Logic.Equiv.Fin.Basic
import Mathlib.Tactic.Ring
import Mathlib.Tactic.Linarith

noncomputable section

namespace Cert.LibLossAlgebra

open scoped BigOperators

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Contracting a vector with row k of the identity matrix reads entry k: no finiteness is needed, since
    x · 1 = x and x · 0 = 0 for every extended real x. -/
theorem sum_mul_ite {n : ℕ} (x : Fin n → EReal) (k : Fin n) :
    ∑ i, x i * (if i = k then (1 : EReal) else 0) = x k := by
  rw [Finset.sum_eq_single k]
  · rw [if_pos rfl, mul_one]
  · intro i _ hik; rw [if_neg hik, mul_zero]
  · intro h; exact absurd (Finset.mem_univ k) h

/-- The same with the factors swapped. -/
theorem sum_ite_mul {n : ℕ} (x : Fin n → EReal) (k : Fin n) :
    ∑ i, (if i = k then (1 : EReal) else 0) * x i = x k := by
  rw [Finset.sum_eq_single k]
  · rw [if_pos rfl, one_mul]
  · intro i _ hik; rw [if_neg hik, zero_mul]
  · intro h; exact absurd (Finset.mem_univ k) h

/-- The same two with the test written the other way round. -/
theorem sum_mul_ite' {n : ℕ} (x : Fin n → EReal) (k : Fin n) :
    ∑ i, x i * (if k = i then (1 : EReal) else 0) = x k := by
  rw [Finset.sum_eq_single k]
  · rw [if_pos rfl, mul_one]
  · intro i _ hik; rw [if_neg (Ne.symm hik), mul_zero]
  · intro h; exact absurd (Finset.mem_univ k) h

theorem sum_ite_mul' {n : ℕ} (x : Fin n → EReal) (k : Fin n) :
    ∑ i, (if k = i then (1 : EReal) else 0) * x i = x k := by
  rw [Finset.sum_eq_single k]
  · rw [if_pos rfl, one_mul]
  · intro i _ hik; rw [if_neg (Ne.symm hik), zero_mul]
  · intro h; exact absurd (Finset.mem_univ k) h

/-- Index i·n + r of block i is below m·n. -/
theorem block_lt {m n N : ℕ} (h : m * n = N) (i : Fin m) (r : Fin n) : i.val * n + r.val < N := by
  have hi := i.isLt
  have hr := r.isLt
  calc i.val * n + r.val < i.val * n + n := by omega
    _ = (i.val + 1) * n := by ring
    _ ≤ m * n := Nat.mul_le_mul_right n hi
    _ = N := h

/-- A sum over m·n indices is the sum, over the m blocks, of the sums over each block's n consecutive indices. -/
theorem sum_blocks {M : Type*} [AddCommMonoid M] {m n N : ℕ} (h : m * n = N) (f : Fin N → M) :
    ∑ b, f b = ∑ i : Fin m, ∑ r : Fin n, f ⟨i.val * n + r.val, block_lt h i r⟩ := by
  subst h
  rw [← Fintype.sum_prod_type' (fun (i : Fin m) (r : Fin n) => f ⟨i.val * n + r.val, block_lt rfl i r⟩)]
  refine (Fintype.sum_equiv finProdFinEquiv _ _ (fun x => congrArg f (Fin.ext ?_))).symm
  show x.1.val * n + x.2.val = x.2.val + n * x.1.val
  rw [Nat.mul_comm, Nat.add_comm]

end Cert.LibLossAlgebra

end
-- ==== Proof.KernelValue.lean ====
/-
  The kernel program's result at the ideal instance. The 32 grid points' contributions, re-indexed from
  (point 2 b + i, row r) to (batch row b, timestep 256 i + r), add up to the masked sum of the row losses over all
  16 x 512 rows; the host operations after the region divide it by the sum of the lengths. So the program ends with
  its result buffer at the specification's loss of the three argument arrays, which it leaves unchanged.
-/
import proofs.«142376_g67714454389493_cont_9to1_m_9_4_alg».proof.Proof.Gen.KernelIdeal.Frame
import proofs.«142376_g67714454389493_cont_9to1_m_9_4_alg».proof.Proof.Accum
import proofs.«142376_g67714454389493_cont_9to1_m_9_4_alg».proof.Proof.Blocks
import proofs.«142376_g67714454389493_cont_9to1_m_9_4_alg».proof.Proof.Spec
import proofs.«142376_g67714454389493_cont_9to1_m_9_4_alg».proof.Proof.LibLossAlgebra
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Idealize.ShloMosaic.StableHlo
open scoped BigOperators

variable (m : (ℓ : Loc nD τ sig) → Buf (Elt Ideal) ℓ)

/-- One row's weighted loss, as a function of the three argument arrays. -/
def rowTerm (c : Dev nD) (b : Fin 16) (t : Fin 512) : EReal :=
  Cert.Spec.mask (m ((c : Thread nD τ).loc main_arg2)) b t
    * (Cert.Spec.lse (m ((c : Thread nD τ).loc main_arg0)) b t - Cert.Spec.picked (m ((c : Thread nD τ).loc main_arg0)) (m ((c : Thread nD τ).loc main_arg1)) b t)

/-- Grid point 2 b + i adds the 256 rows of half i of batch row b. -/
theorem added_eq (c : Dev nD) (t : Fin cfg0.N) (b : Fin 16) (i : Fin 2) (ht : t.val = b.val * 2 + i.val) :
    Accum.added m c t = ∑ r : Fin 256, rowTerm m c b (⟨i.val * 256 + r.val, by omega⟩ : Fin 512) := by
  unfold Accum.added
  refine Finset.sum_congr rfl fun r _ => ?_
  rw [Blocks.blkM_apply m c t r b i ht, Blocks.blkT_apply m c t r b i ht]
  simp only [Blocks.blkX_apply m c t r _ b i ht]
  rfl

/-- The running sum as a sum over the points so far. -/
theorem partialSum_eq (c : Dev nD) : ∀ (n : ℕ) (h : n < cfg0.N),
    Accum.partialSum m c n h = ∑ p : Fin (n + 1), Accum.added m c ⟨p.val, lt_of_le_of_lt (Nat.le_of_lt_succ p.isLt) h⟩
  | 0, h => by
    rw [Fin.sum_univ_one]; rfl
  | n + 1, h => by
    rw [Fin.sum_univ_castSucc]
    show Accum.partialSum m c n _ + _ = _
    rw [partialSum_eq c n]
    rfl

/-- The total over the grid is the masked sum of the row losses over all 16 x 512 rows. -/
theorem total_eq (c : Dev nD) :
    Accum.total m c = Cert.Spec.num (m ((c : Thread nD τ).loc main_arg0)) (m ((c : Thread nD τ).loc main_arg1)) (m ((c : Thread nD τ).loc main_arg2)) := by
  have hN : cfg0.N = 32 := N_0
  unfold Accum.total
  rw [partialSum_eq m c 31]
  rw [Cert.LibLossAlgebra.sum_blocks (m := 16) (n := 2) (N := 32) rfl]
  unfold Cert.Spec.num
  refine Finset.sum_congr rfl fun b _ => ?_
  rw [Cert.LibLossAlgebra.sum_blocks (m := 2) (n := 256) (N := 512) rfl (fun t => Cert.Spec.mask (m ((c : Thread nD τ).loc main_arg2)) b t * (Cert.Spec.lse (m ((c : Thread nD τ).loc main_arg0)) b t - Cert.Spec.picked (m ((c : Thread nD τ).loc main_arg0)) (m ((c : Thread nD τ).loc main_arg1)) b t))]
  refine Finset.sum_congr rfl fun i _ => ?_
  exact added_eq m c _ b i rfl

/-- After the region the host divides the region's one entry by the 32-bit sum of the lengths read as a float: the
    program's result is the loss. -/
theorem tail_eq (c : Dev nD) :
    (Pipeline.afterTail₀ cfgs (dats m) 0 (V0 m) [hostOps1] c main_v13 : S_.Idx → EReal)
      = fun _ => Cert.Spec.loss (m ((c : Thread nD τ).loc main_arg0)) (m ((c : Thread nD τ).loc main_arg1)) (m ((c : Thread nD τ).loc main_arg2)) := by
  unfold Pipeline.afterTail₀
  show StableHlo.after hostOps1 _ (Proc.devRef .tc main_v13) = _
  after_results
  have e9 : Pipeline.withArrays (cfgs 0).spec c (V0 m c) (fun w => (dats m 0 c).arrAt w (cfgs 0).N) (Proc.devRef .tc main_v9) = Accum.result m c :=
    (Pipeline.withArrays_arr spec0 launch0.win.arr_inj c _ _ 3).trans (Accum.final_o m c)
  have e2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  rw [e9, e2]
  funext j
  obtain rfl : j = ix0 := eq_ix0 j
  refine congrArg₂ Ideal.div ?_ ?_
  · show Accum.total m c = _
    exact total_eq m c
  · rfl

/-- The kernel's run at the ideal instance, with the result named: the loss of the three argument arrays. -/
theorem run (ρ : Dev nD → PrngReg) :
    θ_run defs (onTc (τ := τ) (main (F := Ideal))) ⟨m, fun _ => 0, ρ⟩ fun r => ∀ c : Dev nD,
      r.2.mem ((c.tc : Thread nD τ).loc main_v13) = (fun _ => Cert.Spec.loss (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v13 (Pipeline.mem_restRefs_of main_v13 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelValue

end
-- ==== Proof.LossMath.lean ====
/-
  The mathematics behind the comparison of the two forms of the packed cross-entropy loss: the shift invariance of
  log-sum-exp, the finiteness of log-sum-exp of finite entries, the target logit as the one entry whose column
  number is the target word, the sign exchange in the masked sum, the number of positions of a row below its
  length, the sum of the masks against the 32-bit sum of the lengths, and the finiteness of a running maximum.
-/
import proofs.«142376_g67714454389493_cont_9to1_m_9_4_alg».proof.Proof.Spec
import proofs.«142376_g67714454389493_cont_9to1_m_9_4_alg».proof.Proof.LibLossAlgebra
import Idealize.ShloMosaic.PureOps.Ideal
import Idealize.ShloMosaic.PureOps.Ideal.Laws
import Idealize.ShloMosaic.Lib.ValueIdx
import Mathlib.Analysis.SpecialFunctions.Log.Basic
import Mathlib.Analysis.SpecialFunctions.Exp

noncomputable section

namespace Cert.LossMath

open Idealize.ShloMosaic Idealize.ShloMosaic.ValueIdx
open scoped BigOperators
open Cert.LibLossAlgebra (coe_finset_sum)

/-- A sum of exponentials of reals, as an extended real, is the coercion of the real sum. -/
theorem sum_exp_coe {ι : Type} [Fintype ι] (y : ι → ℝ) :
    ∑ v, Ideal.exp (y v : EReal) = ((∑ v, Real.exp (y v) : ℝ) : EReal) := by
  rw [coe_finset_sum]
  exact Finset.sum_congr rfl (fun v _ => Ideal.exp_coe (y v))

/-- A sum of exponentials over a non-empty index type is positive. -/
theorem sum_exp_pos {ι : Type} [Fintype ι] [Nonempty ι] (y : ι → ℝ) : 0 < ∑ v, Real.exp (y v) :=
  Finset.sum_pos (fun _ _ => Real.exp_pos _) Finset.univ_nonempty

/-- Log-sum-exp is shift invariant: sum_v exp (x v - M) = exp (-M) * sum_v exp (x v), both sums positive, so
    the logarithm of the first is -M plus the logarithm of the second, and the two shifts cancel. -/
theorem lse_shift {ι : Type} [Fintype ι] [Nonempty ι] (x : ι → ℝ) (M : ℝ) (k : ι) :
    ((x k : EReal) - (M : EReal)) - Ideal.log (∑ v, Ideal.exp ((x v : EReal) - (M : EReal)))
      = (x k : EReal) - Ideal.log (∑ v, Ideal.exp (x v : EReal)) := by
  have hpos : 0 < ∑ v, Real.exp (x v) := sum_exp_pos x
  have hpos' : 0 < ∑ v, Real.exp (x v - M) := sum_exp_pos (fun v => x v - M)
  have h1 : ∑ v, Ideal.exp ((x v : EReal) - (M : EReal)) = ((∑ v, Real.exp (x v - M) : ℝ) : EReal) := by
    rw [← sum_exp_coe (fun v => x v - M)]
    exact Finset.sum_congr rfl (fun v _ => by rw [EReal.coe_sub])
  have h3 : ∑ v, Real.exp (x v - M) = Real.exp (-M) * ∑ v, Real.exp (x v) := by
    rw [Finset.mul_sum]
    refine Finset.sum_congr rfl (fun v _ => ?_)
    rw [← Real.exp_add]; congr 1; ring
  rw [h1, sum_exp_coe x, Ideal.log_coe, Ideal.log_coe, if_neg (not_le.2 hpos'), if_neg (not_le.2 hpos), h3,
    Real.log_mul (Real.exp_pos _).ne' hpos.ne', Real.log_exp, ← EReal.coe_sub, ← EReal.coe_sub, ← EReal.coe_sub]
  congr 1; ring

/-- The log-sum-exp of a row of finite entries is finite: the sum of the exponentials is a positive real. -/
theorem lse_real (x : Cert.Spec.SX.Idx → EReal) (hx : ∀ i, ∃ r : ℝ, x i = (r : EReal)) (b : Fin 16) (t : Fin 512) :
    ∃ r : ℝ, Cert.Spec.lse x b t = (r : EReal) := by
  choose f hf using hx
  have hpos : 0 < ∑ v : Fin 10000, Real.exp (f (ix3 b t v)) := sum_exp_pos (fun v : Fin 10000 => f (ix3 b t v))
  refine ⟨Real.log (∑ v : Fin 10000, Real.exp (f (ix3 b t v))), ?_⟩
  have h : ∑ v : Fin 10000, Ideal.exp (x (ix3 b t v)) = ((∑ v : Fin 10000, Real.exp (f (ix3 b t v)) : ℝ) : EReal) := by
    rw [← sum_exp_coe (fun v : Fin 10000 => f (ix3 b t v))]
    exact Finset.sum_congr rfl (fun v _ => by rw [hf])
  unfold Cert.Spec.lse
  rw [h, Ideal.log_coe, if_neg (not_le.2 hpos)]

/-- A word that reads, signed, as an integer in [0, 10000) is the word of a column number. -/
theorem col_of_word (w : BitVec 32) (h0 : 0 ≤ w.toInt) (h1 : w.toInt < 10000) :
    ∃ k : Fin 10000, BitVec.ofNat 32 k.val = w := by
  have hlt := w.isLt
  have hto : w.toInt = (w.toNat : Int) := by
    rw [BitVec.toInt_eq_toNat_cond] at h0 ⊢
    split at h0 <;> rename_i hc
    · rw [if_pos hc]
    · exfalso; omega
  have hn : w.toNat < 10000 := by omega
  refine ⟨⟨w.toNat, hn⟩, ?_⟩
  apply BitVec.eq_of_toNat_eq
  rw [BitVec.toNat_ofNat]
  exact Nat.mod_eq_of_lt hlt

/-- The word of a column number determines the column number: column numbers are below 2^32. -/
theorem ofNat_col_inj (v k : Fin 10000) (h : BitVec.ofNat 32 v.val = BitVec.ofNat 32 k.val) : v = k := by
  have hv := v.isLt
  have hk := k.isLt
  have h' := congrArg BitVec.toNat h
  rw [BitVec.toNat_ofNat, BitVec.toNat_ofNat, Nat.mod_eq_of_lt (by omega), Nat.mod_eq_of_lt (by omega)] at h'
  exact Fin.ext h'

/-- The target logit: exactly one column number has the target word, so the sum of the selected entries is that
    column's entry. -/
theorem picked_eq (x : Cert.Spec.SX.Idx → EReal) (tg : Cert.Spec.ST.Idx → BitVec 32) (b : Fin 16) (t : Fin 512)
    (k : Fin 10000) (hk : BitVec.ofNat 32 k.val = tg (ix2 b t)) : Cert.Spec.picked x tg b t = x (ix3 b t k) := by
  unfold Cert.Spec.picked
  rw [Finset.sum_eq_single k]
  · rw [hk]; simp [Scalar.select, IntOp.cmpi]
  · intro v _ hvk
    have hne : BitVec.ofNat 32 v.val ≠ tg (ix2 b t) := by
      rw [← hk]; exact fun h => hvk (ofNat_col_inj v k h)
    have hb : (BitVec.ofNat 32 v.val == tg (ix2 b t)) = false := beq_eq_false_iff_ne.2 hne
    show (if BitVec.ofBool (BitVec.ofNat 32 v.val == tg (ix2 b t)) = 1#1 then _ else _) = _
    rw [hb]
    exact if_neg (by decide)
  · intro h; exact absurd (Finset.mem_univ k) h

/-- The sign exchange in the masked sum, all terms being reals: -(sum (a - l) m) = sum m (l - a). -/
theorem masked_neg_sum {ι : Type} [Fintype ι] (a l m : ι → ℝ) :
    -(∑ i, ((a i : EReal) - (l i : EReal)) * (m i : EReal)) = ∑ i, (m i : EReal) * ((l i : EReal) - (a i : EReal)) := by
  have h1 : ∑ i, ((a i : EReal) - (l i : EReal)) * (m i : EReal) = ((∑ i, (a i - l i) * m i : ℝ) : EReal) := by
    rw [coe_finset_sum]
    exact Finset.sum_congr rfl (fun i _ => by rw [EReal.coe_mul, EReal.coe_sub])
  have h2 : ∑ i, (m i : EReal) * ((l i : EReal) - (a i : EReal)) = ((∑ i, m i * (l i - a i) : ℝ) : EReal) := by
    rw [coe_finset_sum]
    exact Finset.sum_congr rfl (fun i _ => by rw [EReal.coe_mul, EReal.coe_sub])
  rw [h1, h2, ← EReal.coe_neg, ← Finset.sum_neg_distrib]
  congr 1
  exact Finset.sum_congr rfl (fun i _ => by ring)

/-- The maximum of two reals, taken in the extended reals, is their maximum as reals. -/
theorem max_coe (a b : ℝ) : max (a : EReal) (b : EReal) = ((max a b : ℝ) : EReal) :=
  (EReal.coe_strictMono.monotone.map_max).symm

/-- The running maximum of reals started from a real is a real. -/
theorem foldl_max_real_from {α : Type} (f : α → ℝ) :
    ∀ (l : List α) (r : ℝ), ∃ r' : ℝ, l.foldl (fun acc n => max acc (f n : EReal)) (r : EReal) = (r' : EReal)
  | [], r => ⟨r, rfl⟩
  | a :: l, r => by
    rw [List.foldl_cons, max_coe]
    exact foldl_max_real_from f l _

/-- The running maximum of finitely many reals from -inf is a real once the list is non-empty: after the first
    element the accumulator is that element. -/
theorem foldl_max_real {α : Type} (l : List α) (hl : l ≠ []) (f : α → ℝ) :
    ∃ r : ℝ, l.foldl (fun acc n => max acc (f n : EReal)) (⊥ : EReal) = (r : EReal) := by
  cases l with
  | nil => exact absurd rfl hl
  | cons a l =>
    rw [List.foldl_cons, max_eq_right bot_le]
    exact foldl_max_real_from f l _

/-- A natural number below 2^31, as a 32-bit word, reads signed as itself. -/
theorem toInt_ofNat_small (n : ℕ) (h : n < 2 ^ 31) : (BitVec.ofNat 32 n).toInt = (n : Int) := by
  rw [BitVec.toInt_eq_toNat_cond, BitVec.toNat_ofNat, Nat.mod_eq_of_lt (by omega), if_pos (by omega)]

/-- Among the first N natural numbers, those below n number n when n ≤ N. -/
theorem sum_lt_indicator (N n : ℕ) (h : n ≤ N) :
    ∑ t : Fin N, (if t.val < n then (1 : ℝ) else 0) = (n : ℝ) := by
  rw [Finset.sum_boole, Fin.card_filter_val_lt, min_eq_right h]

/-- The number of positions t < 512 with t < w (signed) is w when 0 ≤ w ≤ 512: each position's word reads
    signed as the position, so the comparison is the comparison of natural numbers. -/
theorem mask_sum_row (w : BitVec 32) (h0 : 0 ≤ w.toInt) (h1 : w.toInt ≤ 512) :
    ∑ t : Fin 512, ((((IntOp.cmpi .slt (BitVec.ofNat 32 t.val) w).toNat : ℝ)) : EReal) = ((w.toInt : ℝ) : EReal) := by
  obtain ⟨n, hn⟩ := Int.eq_ofNat_of_zero_le h0
  have hn512 : n ≤ 512 := by omega
  have hterm : ∀ t : Fin 512,
      (((IntOp.cmpi .slt (BitVec.ofNat 32 t.val) w).toNat : ℝ)) = if t.val < n then (1 : ℝ) else 0 := by
    intro t
    have ht := t.isLt
    show (((BitVec.ofBool ((BitVec.ofNat 32 t.val).slt w)).toNat : ℝ)) = _
    rw [BitVec.slt, toInt_ofNat_small t.val (by omega), hn]
    by_cases hlt : t.val < n
    · rw [if_pos hlt, decide_eq_true (by exact_mod_cast hlt)]; simp
    · rw [if_neg hlt, decide_eq_false (by exact_mod_cast hlt)]; simp
  rw [← coe_finset_sum, hn]
  congr 1
  rw [Finset.sum_congr rfl (fun t _ => hterm t), sum_lt_indicator 512 n hn512]
  simp

/-- A fold by 32-bit addition from zero is, as a natural number, the sum of the words modulo 2^32. -/
theorem fold_addi_toNat {ι : Type} [DecidableEq ι] (s : Finset ι) (f : ι → BitVec 32) :
    (s.fold IntOp.addi 0#32 f).toNat = (∑ i ∈ s, (f i).toNat) % 2 ^ 32 := by
  induction s using Finset.induction_on with
  | empty => simp
  | insert a s ha ih =>
    rw [Finset.fold_insert ha, Finset.sum_insert ha]
    show (f a + s.fold IntOp.addi 0#32 f).toNat = _
    rw [BitVec.toNat_add, ih]
    omega

/-- A word that reads signed as a non-negative integer reads unsigned as the same integer. -/
theorem toNat_of_toInt_nonneg (w : BitVec 32) (h0 : 0 ≤ w.toInt) : (w.toNat : Int) = w.toInt := by
  have hlt := w.isLt
  rw [BitVec.toInt_eq_toNat_cond] at h0 ⊢
  split at h0 <;> rename_i hc
  · rw [if_pos hc]
  · exfalso; omega

/-- The 32-bit sum of the 16 lengths does not wrap when every length is in [0, 512] (16 * 512 < 2^31): read
    signed it is the sum of the lengths read signed. -/
theorem lenSum_toInt (ln : Cert.Spec.SL.Idx → BitVec 32) (h : ∀ b, 0 ≤ (ln b).toInt ∧ (ln b).toInt ≤ 512) :
    (Cert.Spec.lenSum ln).toInt = ∑ b : Fin 16, (ln (ix1 b)).toInt := by
  classical
  have hfilter : (Finset.univ.filter fun i : Cert.Spec.SL.Idx =>
      (by decide : Cert.Spec.SL.ReducesTo [0] Cert.Spec.S0).drop i = ix0) = Finset.univ :=
    Finset.filter_true_of_mem (fun i _ => (eq_ix0 _).trans (eq_ix0 _).symm)
  have hnat : (Cert.Spec.lenSum ln).toNat = (∑ i : Cert.Spec.SL.Idx, (ln i).toNat) % 2 ^ 32 := by
    unfold Cert.Spec.lenSum
    rw [Host.reduce_eq_fold, hfilter]
    exact fold_addi_toNat Finset.univ ln
  have hidx : ∑ i : Cert.Spec.SL.Idx, (ln i).toNat = ∑ b : Fin 16, (ln (ix1 b)).toNat :=
    (Fintype.sum_bijective (ix1 (n := 16)) ⟨fun a b hab => congrFun hab 0,
      fun j => ⟨j 0, (eq_ix1 j).symm⟩⟩ _ _ (fun _ => rfl)).symm
  have hle : ∀ b : Fin 16, (ln (ix1 b)).toNat ≤ 512 := fun b => by
    have := toNat_of_toInt_nonneg _ (h (ix1 b)).1
    have := (h (ix1 b)).2
    omega
  have hsum : ∑ b : Fin 16, (ln (ix1 b)).toNat ≤ 16 * 512 := by
    calc ∑ b : Fin 16, (ln (ix1 b)).toNat ≤ ∑ _b : Fin 16, 512 := Finset.sum_le_sum (fun b _ => hle b)
      _ = 16 * 512 := by simp
  rw [hidx, Nat.mod_eq_of_lt (by omega)] at hnat
  rw [BitVec.toInt_eq_toNat_cond, if_pos (by omega), hnat, Nat.cast_sum]
  exact Finset.sum_congr rfl (fun b _ => toNat_of_toInt_nonneg _ (h (ix1 b)).1)

/-- The sum of the masks is the count: each row has as many positions below its length as its length, and
    the 32-bit sum of the lengths is their sum. -/
theorem count_eq (ln : Cert.Spec.SL.Idx → BitVec 32) (h : ∀ b, 0 ≤ (ln b).toInt ∧ (ln b).toInt ≤ 512) :
    ∑ b : Fin 16, ∑ t : Fin 512, Cert.Spec.mask ln b t = Cert.Spec.count ln := by
  have hrow : ∀ b : Fin 16, ∑ t : Fin 512, Cert.Spec.mask ln b t = (((ln (ix1 b)).toInt : ℝ) : EReal) :=
    fun b => mask_sum_row _ (h _).1 (h _).2
  rw [Finset.sum_congr rfl (fun b _ => hrow b), ← coe_finset_sum]
  unfold Cert.Spec.count
  rw [lenSum_toInt ln h, Int.cast_sum]

end Cert.LossMath

end
-- ==== Proof.RefValue.lean ====
/-
  The reference's value is the specification's loss.

  The reference computes  -(Σ_{b,t} ls[b,t,tg[b,t]] · mask[b,t]) / (Σ_{b,t} mask[b,t]),  where
  ls = (x - M) - log (Σ_v exp (x - M)) is the log-softmax of the logits along the column axis with M the row maximum,
  the target entry is taken by a gather along the column axis, and mask[b,t] = [t < ln[b]] read as 0 or 1.

  Read at an index, stage by stage:
    * the mask is the specification's mask (a signed comparison of the position with the row's length);
    * under 0 ≤ tg < 10000 the normalised start index select (tg < 0) (tg + 10000) tg is tg itself and passes the
      range test 0 ≤ · ≤ 9999, so no row is replaced by the fill value, and the gather's clamp does nothing:
      row (b, t) reads the log-softmax at column tg[b,t];
    * the row maximum of finite logits is a real M, so the shift cancels:
      (x_k - M) - log (Σ_v exp (x_v - M)) = x_k - log (Σ_v exp x_v);
    * every row value and every mask value is a real, so the sign moves inside the sum:
      -(Σ (a - l) · m) = Σ m · (l - a), which is the specification's numerator;
    * the sum of the mask is the sum of the lengths, the specification's count.
-/
import proofs.«142376_g67714454389493_cont_9to1_m_9_4_alg».proof.Proof.RefRead
import proofs.«142376_g67714454389493_cont_9to1_m_9_4_alg».proof.Proof.Spec
import proofs.«142376_g67714454389493_cont_9to1_m_9_4_alg».proof.Proof.LossMath
import Idealize.ShloMosaic.Lib.ValueIdx
import Idealize.ShloMosaic.PureOps.Reduce

noncomputable section

namespace Cert.RefValue

open Cert.ReferenceIdeal Cert.ReferenceIdeal.ReadP Idealize.ShloMosaic Idealize.ShloMosaic.ValueIdx
open scoped BigOperators

/-- The reference's mask at (b, t) — the length of row b compared, signed, with the position t, read as 0 or 1 —
    is the specification's. -/
theorem mask_stage (ln : (⟨S16, .i32⟩ : BufTy).Contents (Elt Ideal)) (b : Fin 16) (t : Fin 512) :
    val_main_v6 (F := Ideal) ln (ix2 b t) = Cert.Spec.mask ln b t := by
  have e : idx_main_v2 (idx_main_v4 (ix2 b t)) = ix1 b := funext fun a => by match a with | ⟨0, _⟩ => rfl
  rw [val_main_v6_apply, val_main_v5_apply, val_main_v3_apply, val_main_v1_apply, val_main_v0_apply,
    val_main_v4_apply, val_main_v2_apply, e]
  rfl

/-- A nonnegative word is its own normalised index: select (w < 0) (w + 10000) w = w. -/
theorem norm_word (w : BitVec 32) (h0 : 0 ≤ w.toInt) :
    Scalar.select (IntOp.cmpi .slt w 0#32) (IntOp.addi w 10000#32) w = w := by
  have hz : IntOp.cmpi .slt w 0#32 = 0#1 := eq_zero_of_ne_one (fun h => by
    rw [IntOp.cmpi_slt, show (0#32 : BitVec 32).toInt = 0 from by decide] at h; omega)
  rw [hz, select_zero]

/-- A column number below 10000, written as a 32-bit word and read back signed and clamped into [0, 9999], is itself. -/
theorem clamp_col (k : Fin 10000) : min (BitVec.ofNat 32 k.val).toInt.toNat (10000 - 1) = k.val := by
  have hk := k.isLt
  have e : (BitVec.ofNat 32 k.val).toInt = (k.val : Int) := by
    rw [BitVec.toInt_ofNat']; exact Int.bmod_eq_of_le (by omega) (by omega)
  rw [e]; omega

/-- A left fold by and over one-bit words that are all 1, from 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- The start indices of the gather: under 0 ≤ tg the normalised index is the target word itself. -/
theorem start_eq (tg : (⟨S16x512, .i32⟩ : BufTy).Contents (Elt Ideal)) (htg : ∀ i, 0 ≤ (tg i).toInt ∧ (tg i).toInt < 10000)
    (i : S16x512x1x1.Idx) :
    val_main_call1_v5 (F := Ideal) tg i = tg (idx_main_v8 (idx_main_call1_v5 i)) := by
  rw [val_main_call1_v5_apply, val_main_call1_v4_apply, val_main_call1_v1_apply, val_main_call1_v3_apply, val_main_v8_apply,
    val_main_call1_v0_apply, val_main_call1_c_apply, val_main_call1_v2_apply, val_main_call1_c_0_apply]
  exact norm_word _ (htg _).1

/-- Every start index passes the range test 0 ≤ · ≤ 9999. -/
theorem inrange_one (tg : (⟨S16x512, .i32⟩ : BufTy).Contents (Elt Ideal)) (htg : ∀ i, 0 ≤ (tg i).toInt ∧ (tg i).toInt < 10000)
    (i : S16x512x1x1.Idx) : val_main_call1_v11 (F := Ideal) tg i = 1#1 := by
  rw [val_main_call1_v11_apply, val_main_call1_v7_apply, val_main_call1_v10_apply, start_eq tg htg,
    val_main_call1_v6_apply, val_main_call1_c_2_apply, val_main_call1_v9_apply, val_main_call1_v8_apply, val_main_call1_c_1_apply]
  rw [IntOp.andi_eq_one, IntOp.cmpi_sge, IntOp.cmpi_sle]
  have h := htg (idx_main_v8 (idx_main_call1_v5 i))
  rw [show (0#32 : BitVec 32).toInt = 0 from by decide, show (9999#32 : BitVec 32).toInt = 9999 from by decide]
  omega

/-- So the and over the (unit) index-vector axis is 1 at every row: no row is replaced by the not-a-number fill. -/
theorem allinrange_one (tg : (⟨S16x512, .i32⟩ : BufTy).Contents (Elt Ideal)) (htg : ∀ i, 0 ≤ (tg i).toInt ∧ (tg i).toInt < 10000)
    (j : S16x512x1.Idx) : val_main_call1_v12 (F := Ideal) tg j = 1#1 := by
  unfold val_main_call1_v12
  rw [Host.reduce_eq_foldl]
  exact foldl_andi_one _ _ (fun n _ => inrange_one tg htg n)

/-- The start-indices index of row (b, t) is the flat row index cut back into (b, t). -/
theorem start_row (b : Fin 16) (t : Fin 512) : idx_main_v8 (idx_main_call1_v5 (ix4 b t (0 : Fin 1) (0 : Fin 1))) = ix2 b t := by
  have hb := b.isLt
  have ht := t.isLt
  funext a
  match a with
  | ⟨0, _⟩ => exact Fin.ext (show (((b.val * 512 + t.val) * 1 + 0) * 1 + 0) / 512 = b.val by omega)
  | ⟨1, _⟩ => exact Fin.ext (show (((b.val * 512 + t.val) * 1 + 0) * 1 + 0) / 1 % 512 = t.val by omega)

/-- The gather's dimension numbers: batched over (b, t), one start index per row, into the column axis, which is
    collapsed; every slice has one element. -/
abbrev colGather : GatherDims S16x512x10000 S16x512x1x1 S16x512x1 := gather_S16x512x10000_S16x512x1x1_S16x512x1_n_2_01_01_2_3_111

/-- The gather read at (b, t, 0): the operand at column k, when k is the target word of row (b, t). On the two batching
    axes the operand coordinate is the row's own; on the column axis it is the start index, read signed and clamped
    into [0, 9999], which is k itself. -/
theorem gather_stage (y : S16x512x10000.Idx → EReal) (tg : (⟨S16x512, .i32⟩ : BufTy).Contents (Elt Ideal))
    (htg : ∀ i, 0 ≤ (tg i).toInt ∧ (tg i).toInt < 10000) (b : Fin 16) (t : Fin 512) (k : Fin 10000)
    (hk : BitVec.ofNat 32 k.val = tg (ix2 b t)) :
    Host.gather colGather y (val_main_call1_v5 (F := Ideal) tg)
        (ix3 b t (0 : Fin 1)) = y (ix3 b t k) := by
  unfold Host.gather
  refine congrArg y (funext fun a => Fin.ext ?_)
  show colGather.start (ix3 b t (0 : Fin 1)) (val_main_call1_v5 (F := Ideal) tg) a
    + colGather.batchCoord (ix3 b t (0 : Fin 1)) a
    + colGather.offCoord (ix3 b t (0 : Fin 1)) a = (ix3 b t k a).val
  match a with
  | ⟨0, h0⟩ =>
    have ha : (⟨0, h0⟩ : Fin 3) ∈ colGather.operandBatchingDims := (by decide : (0 : Fin 3) ∈ colGather.operandBatchingDims)
    rw [GatherDims.start_batching _ _ _ _ ha, GatherDims.offCoord_eq_zero _ _ _ (fun h => ((GatherDims.mem_sKept _ _).mp h).2 ha)]
    unfold GatherDims.batchCoord
    rw [dif_pos ha]
    rw [Nat.zero_add, Nat.add_zero]
    rfl
  | ⟨1, h1⟩ =>
    have ha : (⟨1, h1⟩ : Fin 3) ∈ colGather.operandBatchingDims := (by decide : (1 : Fin 3) ∈ colGather.operandBatchingDims)
    rw [GatherDims.start_batching _ _ _ _ ha, GatherDims.offCoord_eq_zero _ _ _ (fun h => ((GatherDims.mem_sKept _ _).mp h).2 ha)]
    unfold GatherDims.batchCoord
    rw [dif_pos ha, Nat.zero_add, Nat.add_zero]
    rfl
  | ⟨2, h2⟩ =>
    have hc : (⟨2, h2⟩ : Fin 3) ∈ colGather.collapsedSliceDims := (by decide : (2 : Fin 3) ∈ colGather.collapsedSliceDims)
    have hnb : (⟨2, h2⟩ : Fin 3) ∉ colGather.operandBatchingDims := (by decide : (2 : Fin 3) ∉ colGather.operandBatchingDims)
    have hm : (⟨2, h2⟩ : Fin 3) ∈ colGather.startIndexMap := (by decide : (2 : Fin 3) ∈ colGather.startIndexMap)
    rw [GatherDims.batchCoord_eq_zero _ _ _ hnb, GatherDims.offCoord_eq_zero _ _ _ (fun h => ((GatherDims.mem_sKept _ _).mp h).1 hc),
      Nat.add_zero]
    unfold GatherDims.start
    rw [dif_pos hm]
    have hsi : colGather.siIdx (ix3 b t (0 : Fin 1)) ⟨List.idxOf (⟨2, h2⟩ : Fin 3) colGather.startIndexMap, List.idxOf_lt_length_iff.2 hm⟩
        = ix4 b t (0 : Fin 1) (0 : Fin 1) := by
      funext c; refine Fin.ext ?_
      match c with
      | ⟨0, _⟩ => rfl
      | ⟨1, _⟩ => rfl
      | ⟨2, _⟩ => rfl
      | ⟨3, _⟩ => rfl
    rw [hsi, start_eq tg htg, start_row, ← hk]
    exact clamp_col k

/-- The row maximum, a fold of max from -inf over a row of reals, is a real. -/
theorem rowmax_real (x : (⟨S16x512x10000, .f32⟩ : BufTy).Contents (Elt Ideal)) (hx : ∀ i, ∃ r : ℝ, x i = (r : EReal))
    (b : Fin 16) (t : Fin 512) : ∃ M : ℝ, val_main_call0_v2 (F := Ideal) x (ix2 b t) = (M : EReal) := by
  choose xr hxr using hx
  have hbot : Ideal.ofBits .f32 0xFF800000#32 = (⊥ : EReal) := by simp [Ideal.ofBits, Ideal.ieee]
  have hmem : ix3 b t (0 : Fin 10000) ∈ (((List.finRange S16x512x10000.numel).map S16x512x10000.rowMajor.symm).filter
      fun i => Gen.reducesTo_S16x512x10000_S16x512_d2.drop i = ix2 b t) := by
    rw [List.mem_filter]
    refine ⟨List.mem_map.2 ⟨S16x512x10000.rowMajor _, List.mem_finRange _, Equiv.symm_apply_apply _ _⟩, decide_eq_true ?_⟩
    funext a
    match a with
    | ⟨0, _⟩ => rfl
    | ⟨1, _⟩ => rfl
  obtain ⟨M, hM⟩ := Cert.LossMath.foldl_max_real _ (List.ne_nil_of_mem hmem) xr
  refine ⟨M, ?_⟩
  rw [val_main_call0_v2_apply, val_main_call0_v1_apply, val_main_call0_cst_0_apply]
  unfold val_main_call0_v0
  rw [Host.reduce_eq_foldl, val_main_call0_cst_apply]
  simp only [hxr]
  show max (Ideal.ofBits .f32 0xFF800000#32) (List.foldl (fun r i => max r (xr i : EReal)) (Ideal.ofBits .f32 0xFF800000#32) _) = M
  rw [hbot, hM]
  exact max_eq_right bot_le

/-- log-softmax at (b, t, k): (x - M) - log (0 + Σ_v exp (x_v - M)) with M the row maximum, which is x_k minus the
    log-sum-exp of the row: the shift by the real M cancels. -/
theorem logsoftmax_stage (x : (⟨S16x512x10000, .f32⟩ : BufTy).Contents (Elt Ideal)) (hx : ∀ i, ∃ r : ℝ, x i = (r : EReal))
    (b : Fin 16) (t : Fin 512) (k : Fin 10000) :
    val_main_v7 (F := Ideal) x (ix3 b t k) = x (ix3 b t k) - Cert.Spec.lse x b t := by
  obtain ⟨M, hM⟩ := rowmax_real x hx b t
  choose xr hxr using hx
  have e4 : ∀ v : Fin 10000, idx_main_call0_v3 (idx_main_call0_v4 (ix3 b t v)) = ix2 b t := fun v =>
    funext fun a => by match a with | ⟨0, _⟩ => rfl | ⟨1, _⟩ => rfl
  have e8 : idx_main_call0_v8 (idx_main_call0_v10 (ix3 b t k)) = ix2 b t :=
    funext fun a => by match a with | ⟨0, _⟩ => rfl | ⟨1, _⟩ => rfl
  have e7 : ∀ v : Fin 10000, idx_main_call0_v7 (ix2 b t) v = ix3 b t v := fun v =>
    funext fun a => by match a with | ⟨0, _⟩ => rfl | ⟨1, _⟩ => rfl | ⟨2, _⟩ => rfl
  have h5 : ∀ v : Fin 10000, val_main_call0_v5 (F := Ideal) x (ix3 b t v) = (xr (ix3 b t v) : EReal) - (M : EReal) := by
    intro v
    rw [val_main_call0_v5_apply, val_main_call0_v4_apply, val_main_call0_v3_apply, e4 v, hM, hxr]
    rfl
  calc val_main_v7 (F := Ideal) x (ix3 b t k)
      = ((xr (ix3 b t k) : EReal) - (M : EReal))
          - Ideal.log (∑ v : Fin 10000, Ideal.exp ((xr (ix3 b t v) : EReal) - (M : EReal))) := by
        rw [val_main_v7_apply, val_main_call0_v10_apply, val_main_call0_v9_apply, val_main_call0_v8_apply, e8,
          val_main_call0_v7_apply, val_main_call0_cst_1_apply, h5 k]
        simp only [e7, val_main_call0_v6_apply, h5, Ideal.subf_def, Ideal.hostUnary_log_def, Ideal.hostUnary_exp_def,
          Ideal.ofBits_def, Ideal.ofBits_zero_f32, zero_add]
    _ = (xr (ix3 b t k) : EReal) - Ideal.log (∑ v : Fin 10000, Ideal.exp (xr (ix3 b t v) : EReal)) :=
        Cert.LossMath.lse_shift (fun v => xr (ix3 b t v)) M k
    _ = x (ix3 b t k) - Cert.Spec.lse x b t := by
        unfold Cert.Spec.lse
        simp only [hxr]

/-- Row (b, t) of the gathered, reshaped log-softmax: x at the target column minus the row's log-sum-exp. -/
theorem row_stage (x : (⟨S16x512x10000, .f32⟩ : BufTy).Contents (Elt Ideal)) (hx : ∀ i, ∃ r : ℝ, x i = (r : EReal))
    (tg : (⟨S16x512, .i32⟩ : BufTy).Contents (Elt Ideal)) (htg : ∀ i, 0 ≤ (tg i).toInt ∧ (tg i).toInt < 10000)
    (b : Fin 16) (t : Fin 512) (k : Fin 10000) (hk : BitVec.ofNat 32 k.val = tg (ix2 b t)) :
    val_main_v10 (F := Ideal) x tg (ix2 b t) = x (ix3 b t k) - Cert.Spec.lse x b t := by
  have hb := b.isLt
  have ht := t.isLt
  have e10 : idx_main_v10 (ix2 b t) = ix3 b t (0 : Fin 1) := by
    funext a
    match a with
    | ⟨0, _⟩ => exact Fin.ext (show (b.val * 512 + t.val) / 512 = b.val by omega)
    | ⟨1, _⟩ => exact Fin.ext (show (b.val * 512 + t.val) / 1 % 512 = t.val by omega)
    | ⟨2, _⟩ => rfl
  rw [val_main_v10_apply, e10, val_main_v9_apply, allinrange_one tg htg, select_one]
  unfold val_main_call1_v13
  exact (gather_stage _ tg htg b t k hk).trans (logsoftmax_stage x hx b t k)

/-- THE REFERENCE'S VALUE: minus the masked sum of the gathered log-softmax rows, over the sum of the mask, is the
    specification's loss. Each row is x at the target column minus the row's log-sum-exp (a real); the mask is 0 or 1;
    so the sign moves inside the finite sum of reals, and the mask's sum is the sum of the lengths. -/
theorem ref_value (x : (⟨Cert.ReferenceIdeal.S16x512x10000, .f32⟩ : BufTy).Contents (Elt Ideal))
    (tg : (⟨Cert.ReferenceIdeal.S16x512, .i32⟩ : BufTy).Contents (Elt Ideal))
    (ln : (⟨Cert.ReferenceIdeal.S16, .i32⟩ : BufTy).Contents (Elt Ideal))
    (hx : ∀ i, ∃ r : ℝ, x i = (r : EReal))
    (htg : ∀ i, 0 ≤ (tg i).toInt ∧ (tg i).toInt < 10000)
    (hln : ∀ b, 0 ≤ (ln b).toInt ∧ (ln b).toInt ≤ 512) :
    Cert.ReferenceIdeal.ReadP.val_main_v15 (F := Ideal) x tg ln = fun _ => Cert.Spec.loss x tg ln := by
  funext i
  have hcol : ∀ (b : Fin 16) (t : Fin 512), ∃ k : Fin 10000, BitVec.ofNat 32 k.val = tg (ix2 b t) :=
    fun b t => Cert.LossMath.col_of_word _ (htg _).1 (htg _).2
  choose kk hkk using hcol
  have hlse : ∀ (b : Fin 16) (t : Fin 512), ∃ r : ℝ, Cert.Spec.lse x b t = (r : EReal) :=
    fun b t => Cert.LossMath.lse_real x hx b t
  choose lr hlr using hlse
  have hx' := hx
  choose xr hxr using hx'
  have hnum : val_main_v13 (F := Ideal) x tg ln i = Cert.Spec.num x tg ln := by
    have hrow : ∀ (b : Fin 16) (t : Fin 512), val_main_v11 (F := Ideal) x tg ln (ix2 b t)
        = ((xr (ix3 b t (kk b t)) : EReal) - (lr b t : EReal))
          * (((IntOp.cmpi .slt (BitVec.ofNat 32 t.val) (ln (ix1 b))).toNat : ℝ) : EReal) := by
      intro b t
      rw [val_main_v11_apply, row_stage x hx tg htg b t (kk b t) (hkk b t), mask_stage, hxr, hlr]
      rfl
    have key := Cert.LossMath.masked_neg_sum (fun p : Fin 16 × Fin 512 => xr (ix3 p.1 p.2 (kk p.1 p.2)))
      (fun p => lr p.1 p.2) (fun p => ((IntOp.cmpi .slt (BitVec.ofNat 32 p.2.val) (ln (ix1 p.1))).toNat : ℝ))
    rw [Fintype.sum_prod_type, Fintype.sum_prod_type] at key
    dsimp only at key
    rw [val_main_v13_apply, val_main_v12_apply, val_main_cst_apply, sum_idx2]
    simp only [hrow, Ideal.hostNegf_def, Ideal.negf_def, Ideal.ofBits_def, Ideal.ofBits_zero_f32, zero_add]
    rw [key]
    unfold Cert.Spec.num
    refine Finset.sum_congr rfl fun b _ => Finset.sum_congr rfl fun t _ => ?_
    rw [Cert.LossMath.picked_eq x tg b t (kk b t) (hkk b t), hlr, hxr]
    rfl
  have hden : val_main_v14 (F := Ideal) ln i = Cert.Spec.count ln := by
    rw [val_main_v14_apply, val_main_cst_0_apply, sum_idx2]
    simp only [mask_stage, Ideal.ofBits_def, Ideal.ofBits_zero_f32, zero_add]
    exact Cert.LossMath.count_eq ln hln
  rw [val_main_v15_apply, hnum, hden]
  rfl

end Cert.RefValue

end
-- ==== Proof.PreFacts.lean ====
/-
  The precondition read back.  The printed predicate is the conjunction of five "for all" statements, each an
  and-reduction of a pointwise comparison down to one bit: every logit has absolute value below plus infinity, every
  target word is at least 0 and below 10000 as a signed integer, every length word is at least 0 and at most 512.
  When the predicate's bit is 1 each of the five reductions is 1, so each comparison holds at every index; over the
  extended reals "the absolute value max x (-x) is below the top element" says exactly that x is a real number.
-/
import proofs.«142376_g67714454389493_cont_9to1_m_9_4_alg».proof.Pre_finite_inputs
import proofs.«142376_g67714454389493_cont_9to1_m_9_4_alg».proof.Proof.Spec
import Idealize.ShloMosaic.PureOps.Ideal
import Idealize.ShloMosaic.Lib.ValueIdx
import Idealize.ShloMosaic.Lib.ReduceAll
import Idealize.ShloMosaic.Lib.Affine
import Idealize.ShloMosaic.Lib.IdealHost

namespace Cert.PreFacts

open Idealize.ShloMosaic Idealize.ShloMosaic.ValueIdx
open Cert.Pre_finite_inputs (S16x512x10000 S16x512 S16 S_)

/-- The shape of a scalar has exactly one index. -/
instance subsingleton_scalar_idx : Subsingleton S_.Idx := ⟨fun a b => funext fun d => d.elim0⟩

/-! ## The element facts -/

/-- The word 0x7F800000 is plus infinity. -/
theorem inf_word : Ideal.ofBits .f32 0x7F800000#32 = (⊤ : EReal) := by simp [Ideal.ofBits, Ideal.ieee]

/-- An extended real whose absolute value max x (-x) is strictly below plus infinity is a real number: at either
    infinity the absolute value is the top element. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

theorem toInt_zero : (0#32 : BitVec 32).toInt = 0 := by decide
theorem toInt_tenThousand : (10000#32 : BitVec 32).toInt = 10000 := by decide
theorem toInt_fiveTwelve : (512#32 : BitVec 32).toInt = 512 := by decide

variable [Cert.Pre_finite_inputs.Facts]
open Cert.Pre_finite_inputs.Facts

/-! ## One lemma per conjunct: an and-reduction that is 1 gives the comparison at every index -/

/-- Every logit is a real number. -/
theorem all_real (x : FVec Ideal S16x512x10000 .f32) (init : IVec S_ 1)
    (h : Host.reduce IntOp.andi
          (cmpf .olt (Host.absf x)
            (broadcastInDim S16x512x10000 ![] bcast_S_S16x512x10000 (constant (F := Ideal) S_ .f32 0x7F800000#32)))
          init reducesTo_S16x512x10000_S_d0_1_2 h_S_ ix0 = 1#1) (i : S16x512x10000.Idx) :
    ∃ r : ℝ, x i = (r : EReal) := by
  have e := Host.reduce_andi_all _ init reducesTo_S16x512x10000_S_d0_1_2 h_S_ ix0 h i
  rw [cmpf_apply, broadcastInDim_scalar_apply, constant_apply] at e
  exact real_of_abs_lt_inf (x i) e

/-- A signed lower bound on every word of a rank-2 integer array. -/
theorem all_sge (a : IVec S16x512 32) (c : BitVec 32) (init : IVec S_ 1)
    (h : Host.reduce IntOp.andi (cmpi .sge a (broadcastInDim S16x512 ![] bcast_S_S16x512 (constantI S_ 32 c)))
          init reducesTo_S16x512_S_d0_1 h_S_ ix0 = 1#1) (i : S16x512.Idx) : c.toInt ≤ (a i).toInt := by
  have e := Host.reduce_andi_all _ init reducesTo_S16x512_S_d0_1 h_S_ ix0 h i
  have e' : IntOp.cmpi .sge (a i) c = 1#1 := by
    rw [← e]; show _ = IntOp.cmpi .sge (a i) (broadcastInDim S16x512 ![] bcast_S_S16x512 (constantI S_ 32 c) i)
    rw [broadcastInDim_scalar_apply]; rfl
  exact IntOp.cmpi_sge.1 e'

/-- A signed strict upper bound on every word of a rank-2 integer array. -/
theorem all_slt (a : IVec S16x512 32) (c : BitVec 32) (init : IVec S_ 1)
    (h : Host.reduce IntOp.andi (cmpi .slt a (broadcastInDim S16x512 ![] bcast_S_S16x512 (constantI S_ 32 c)))
          init reducesTo_S16x512_S_d0_1 h_S_ ix0 = 1#1) (i : S16x512.Idx) : (a i).toInt < c.toInt := by
  have e := Host.reduce_andi_all _ init reducesTo_S16x512_S_d0_1 h_S_ ix0 h i
  have e' : IntOp.cmpi .slt (a i) c = 1#1 := by
    rw [← e]; show _ = IntOp.cmpi .slt (a i) (broadcastInDim S16x512 ![] bcast_S_S16x512 (constantI S_ 32 c) i)
    rw [broadcastInDim_scalar_apply]; rfl
  exact IntOp.cmpi_slt.1 e'

/-- A signed lower bound on every word of a rank-1 integer array. -/
theorem all_sge1 (a : IVec S16 32) (c : BitVec 32) (init : IVec S_ 1)
    (h : Host.reduce IntOp.andi (cmpi .sge a (broadcastInDim S16 ![] bcast_S_S16 (constantI S_ 32 c)))
          init reducesTo_S16_S_d0 h_S_ ix0 = 1#1) (i : S16.Idx) : c.toInt ≤ (a i).toInt := by
  have e := Host.reduce_andi_all _ init reducesTo_S16_S_d0 h_S_ ix0 h i
  have e' : IntOp.cmpi .sge (a i) c = 1#1 := by
    rw [← e]; show _ = IntOp.cmpi .sge (a i) (broadcastInDim S16 ![] bcast_S_S16 (constantI S_ 32 c) i)
    rw [broadcastInDim_scalar_apply]; rfl
  exact IntOp.cmpi_sge.1 e'

/-- A signed upper bound on every word of a rank-1 integer array. -/
theorem all_sle1 (a : IVec S16 32) (c : BitVec 32) (init : IVec S_ 1)
    (h : Host.reduce IntOp.andi (cmpi .sle a (broadcastInDim S16 ![] bcast_S_S16 (constantI S_ 32 c)))
          init reducesTo_S16_S_d0 h_S_ ix0 = 1#1) (i : S16.Idx) : (a i).toInt ≤ c.toInt := by
  have e := Host.reduce_andi_all _ init reducesTo_S16_S_d0 h_S_ ix0 h i
  have e' : IntOp.cmpi .sle (a i) c = 1#1 := by
    rw [← e]; show _ = IntOp.cmpi .sle (a i) (broadcastInDim S16 ![] bcast_S_S16 (constantI S_ 32 c) i)
    rw [broadcastInDim_scalar_apply]; rfl
  exact IntOp.cmpi_sle.1 e'

/-! ## The precondition decoded -/

/-- When the printed predicate holds, every logit is real, every target word lies in [0, 10000) and every length
    word lies in [0, 512], the words read as signed integers. -/
theorem decode (x : Cert.Spec.SX.Idx → EReal) (tg : Cert.Spec.ST.Idx → BitVec 32) (ln : Cert.Spec.SL.Idx → BitVec 32)
    (h : Cert.Pre_finite_inputs.fn (F := Ideal) x tg ln = fun _ => 1#1) :
    (∀ i, ∃ r : ℝ, x i = (r : EReal)) ∧ (∀ i, 0 ≤ (tg i).toInt ∧ (tg i).toInt < 10000)
      ∧ (∀ b, 0 ≤ (ln b).toInt ∧ (ln b).toInt ≤ 512) := by
  have h0 := congrFun h ix0
  dsimp only [Cert.Pre_finite_inputs.fn, Cert.Pre_finite_inputs.fn_part1] at h0
  simp only [andi, IntOp.andi_eq_one] at h0
  obtain ⟨⟨⟨⟨hx, htg0⟩, htg1⟩, hln0⟩, hln1⟩ := h0
  refine ⟨fun i => all_real x _ hx i, fun i => ⟨?_, ?_⟩, fun b => ⟨?_, ?_⟩⟩
  · have := all_sge tg 0#32 _ htg0 i; rwa [toInt_zero] at this
  · have := all_slt tg 10000#32 _ htg1 i; rwa [toInt_tenThousand] at this
  · have := all_sge1 ln 0#32 _ hln0 b; rwa [toInt_zero] at this
  · have := all_sle1 ln 512#32 _ hln1 b; rwa [toInt_fiveTwelve] at this

end Cert.PreFacts
-- ==== Proof.lean ====
/-
  Packed cross-entropy, kernel against reference, over the extended reals.

  Both programs compute, from logits x[b,t,v] (16 x 512 x 10000), targets tg[b,t] and lengths ln[b],

      loss = ( sum over (b,t) of [t < ln b] * ( log (sum_v exp x[b,t,v]) - x[b,t,tg[b,t]] ) ) / (sum_b ln b).

  The kernel streams the logits in 32 blocks of 256 rows, adds each block's masked row losses into a 1 x 1 accumulator
  (zeroed at the first grid point, written back after the last), takes the target logit as the sum of the row's entries
  whose column number equals the target, and the host divides by the integer sum of the lengths (Spec.lean states this
  function; Payload / Cases / Accum / Blocks / KernelValue read it off the kernel's run). The reference takes
  log_softmax with the row maximum subtracted, gathers the target entry, multiplies by the mask, negates the total and
  divides by the sum of the mask (RefRead / RefRun read its run; RefValue brings it to the same function). The two agree
  where the logits are finite (log-sum-exp is invariant under the shift by the finite row maximum; negation and the mask
  distribute over finite sums), the targets are column numbers 0 .. 9999 (the gather then reads the entry the kernel's
  comparison selects), and the lengths lie in 0 .. 512 (the count of timesteps below ln b is then ln b, and the 32-bit sum
  does not wrap): LossMath has these laws, PreFacts reads the three ranges off the precondition.

  The frames of the two kernel programs are the generated ones; the reference's frame is its run with the result
  dropped; the idealization rewrote nothing.
-/
import proofs.«142376_g67714454389493_cont_9to1_m_9_4_alg».proof.Defs
import proofs.«142376_g67714454389493_cont_9to1_m_9_4_alg».proof.Proof.Gen.Kernel
import proofs.«142376_g67714454389493_cont_9to1_m_9_4_alg».proof.Proof.Gen.Kernel.Frame
import proofs.«142376_g67714454389493_cont_9to1_m_9_4_alg».proof.Proof.Gen.KernelIdeal
import proofs.«142376_g67714454389493_cont_9to1_m_9_4_alg».proof.Proof.Gen.KernelIdeal.Frame
import proofs.«142376_g67714454389493_cont_9to1_m_9_4_alg».proof.Proof.Gen.ReferenceIdeal
import proofs.«142376_g67714454389493_cont_9to1_m_9_4_alg».proof.Proof.Gen.Pre_finite_inputs
import proofs.«142376_g67714454389493_cont_9to1_m_9_4_alg».proof.Proof.Spec
import proofs.«142376_g67714454389493_cont_9to1_m_9_4_alg».proof.Proof.KernelValue
import proofs.«142376_g67714454389493_cont_9to1_m_9_4_alg».proof.Proof.RefRun
import proofs.«142376_g67714454389493_cont_9to1_m_9_4_alg».proof.Proof.RefValue
import proofs.«142376_g67714454389493_cont_9to1_m_9_4_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- Both programs end with their result at the loss of the argument arrays: the kernel always, the reference where the
    logits are finite, the targets are column numbers and the lengths lie in 0 .. 512, which the precondition says. -/
theorem algebraic : Cert.algebraic_KernelIdeal_ReferenceIdeal := by
  intro m ρ m' ρ' hpre hagree
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  obtain ⟨hx, htg, hln⟩ := Cert.PreFacts.decode _ _ _ (hpre c)
  exact Cert.RefValue.ref_value _ _ _ hx htg hln

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
